-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30000x2 : Shape := ⟨2, ![30000, 2]⟩
abbrev S30000x512 : Shape := ⟨2, ![30000, 512]⟩
abbrev S2x480000 : Shape := ⟨2, ![2, 480000]⟩
abbrev S32x2 : Shape := ⟨2, ![32, 2]⟩
abbrev S32 : Shape := ⟨1, ![32]⟩
abbrev S_ : Shape := ⟨0, ![]⟩
abbrev S32x32 : Shape := ⟨2, ![32, 32]⟩
abbrev S1x32 : Shape := ⟨2, ![1, 32]⟩
abbrev S1 : Shape := ⟨1, ![1]⟩

class Facts : Prop where
  bcast_S_S30000x2 : S_.BroadcastsInDim S30000x2 (![] : Fin 0 → Fin S30000x2.rank)
  reducesTo_S30000x2_S_d0_1 : S30000x2.ReducesTo [0, 1] S_
  h_S_ : 0 < S_.numel
  bcast_S_S30000x512 : S_.BroadcastsInDim S30000x512 (![] : Fin 0 → Fin S30000x512.rank)
  reducesTo_S30000x512_S_d0_1 : S30000x512.ReducesTo [0, 1] S_
  bcast_S_S32x2 : S_.BroadcastsInDim S32x2 (![] : Fin 0 → Fin S32x2.rank)
  reducesTo_S32x2_S_d0_1 : S32x2.ReducesTo [0, 1] S_
  bcast_S_S32 : S_.BroadcastsInDim S32 (![] : Fin 0 → Fin S32.rank)
  reducesTo_S32_S_d0 : S32.ReducesTo [0] S_
  reducesTo_S_S_d : S_.ReducesTo [] S_
  bcast_S_S32x32 : S_.BroadcastsInDim S32x32 (![] : Fin 0 → Fin S32x32.rank)
  reducesTo_S32x32_S_d0_1 : S32x32.ReducesTo [0, 1] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1x32 .f32) (main_arg13 : FVec F S1 .f32) (main_v47 : IVec S_ 1) (main_v50 : IVec S32 1) : IVec S_ 1 :=
  let main_c_19 : IVec S_ 1 := constantI S_ 1 1#1
  let main_v51 : IVec S_ 1 := (fun x v => Host.reduce IntOp.andi x v reducesTo_S32_S_d0 h_S_) main_v50 main_c_19
  let main_v52 : IVec S_ 1 := andi main_v47 main_v51
  let main_v53 : FVec F S1x32 .f32 := Host.absf main_arg12
  let main_cst_20 : FVec F S_ .f32 := constant S_ .f32 0x7F800000#32
  let main_v54 : FVec F S1x32 .f32 := broadcastInDim S1x32 ![] bcast_S_S1x32 main_cst_20
  let main_v55 : IVec S1x32 1 := cmpf .olt main_v53 main_v54
  let main_c_21 : IVec S_ 1 := constantI S_ 1 1#1
  let main_v56 : IVec S_ 1 := (fun x v => Host.reduce IntOp.andi x v reducesTo_S1x32_S_d0_1 h_S_) main_v55 main_c_21
  let main_v57 : IVec S_ 1 := andi main_v52 main_v56
  let main_v58 : FVec F S1 .f32 := Host.absf main_arg13
  let main_cst_22 : FVec F S_ .f32 := constant S_ .f32 0x7F800000#32
  let main_v59 : FVec F S1 .f32 := broadcastInDim S1 ![] bcast_S_S1 main_cst_22
  let main_v60 : IVec S1 1 := cmpf .olt main_v58 main_v59
  let main_c_23 : IVec S_ 1 := constantI S_ 1 1#1
  let main_v61 : IVec S_ 1 := (fun x v => Host.reduce IntOp.andi x v reducesTo_S1_S_d0 h_S_) main_v60 main_c_23
  let main_v62 : IVec S_ 1 := andi main_v57 main_v61
  main_v62

def fn_part2 {F : FTy → Type} [FloatOps F] (main_arg9 : FVec F S32 .f32) (main_arg10 : FVec F S32x32 .f32) (main_arg11 : FVec F S32 .f32) (main_arg12 : FVec F S1x32 .f32) (main_arg13 : FVec F S1 .f32) (main_v32 : IVec S_ 1) (main_v33 : FVec F S32x32 .f32) : IVec S_ 1 :=
  let main_cst_12 : FVec F S_ .f32 := constant S_ .f32 0x7F800000#32
  let main_v34 : FVec F S32x32 .f32 := broadcastInDim S32x32 ![] bcast_S_S32x32 main_cst_12
  let main_v35 : IVec S32x32 1 := cmpf .olt main_v33 main_v34
  let main_c_13 : IVec S_ 1 := constantI S_ 1 1#1
  let main_v36 : IVec S_ 1 := (fun x v => Host.reduce IntOp.andi x v reducesTo_S32x32_S_d0_1 h_S_) main_v35 main_c_13
  let main_v37 : IVec S_ 1 := andi main_v32 main_v36
  let main_v38 : FVec F S32 .f32 := Host.absf main_arg9
  let main_cst_14 : FVec F S_ .f32 := constant S_ .f32 0x7F800000#32
  let main_v39 : FVec F S32 .f32 := broadcastInDim S32 ![] bcast_S_S32 main_cst_14
  let main_v40 : IVec S32 1 := cmpf .olt main_v38 main_v39
  let main_c_15 : IVec S_ 1 := constantI S_ 1 1#1
  let main_v41 : IVec S_ 1 := (fun x v => Host.reduce IntOp.andi x v reducesTo_S32_S_d0 h_S_) main_v40 main_c_15
  let main_v42 : IVec S_ 1 := andi main_v37 main_v41
  let main_v43 : FVec F S32x32 .f32 := Host.absf main_arg10
  let main_cst_16 : FVec F S_ .f32 := constant S_ .f32 0x7F800000#32
  let main_v44 : FVec F S32x32 .f32 := broadcastInDim S32x32 ![] bcast_S_S32x32 main_cst_16
  let main_v45 : IVec S32x32 1 := cmpf .olt main_v43 main_v44
  let main_c_17 : IVec S_ 1 := constantI S_ 1 1#1
  let main_v46 : IVec S_ 1 := (fun x v => Host.reduce IntOp.andi x v reducesTo_S32x32_S_d0_1 h_S_) main_v45 main_c_17
  let main_v47 : IVec S_ 1 := andi main_v42 main_v46
  let main_v48 : FVec F S32 .f32 := Host.absf main_arg11
  let main_cst_18 : FVec F S_ .f32 := constant S_ .f32 0x7F800000#32
  let main_v49 : FVec F S32 .f32 := broadcastInDim S32 ![] bcast_S_S32 main_cst_18
  let main_v50 : IVec S32 1 := cmpf .olt main_v48 main_v49
  fn_part3 (F := F) main_arg12 main_arg13 main_v47 main_v50

def fn_part1 {F : FTy → Type} [FloatOps F] (main_arg5 : FVec F S32 .f32) (main_arg6 : FVec F S32 .f32) (main_arg7 : FVec F S_ .f32) (main_arg8 : FVec F S32x32 .f32) (main_arg9 : FVec F S32 .f32) (main_arg10 : FVec F S32x32 .f32) (main_arg11 : FVec F S32 .f32) (main_arg12 : FVec F S1x32 .f32) (main_arg13 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S_ .f32 := Host.absf main_arg7
  let main_cst_10 : FVec F S_ .f32 := constant S_ .f32 0x7F800000#32
  let main_v30 : IVec S_ 1 := cmpf .olt main_v29 main_cst_10
  let main_c_11 : IVec S_ 1 := constantI S_ 1 1#1
  let main_v31 : IVec S_ 1 := (fun x v => Host.reduce IntOp.andi x v reducesTo_S_S_d h_S_) main_v30 main_c_11
  let main_v32 : IVec S_ 1 := andi main_v28 main_v31
  let main_v33 : FVec F S32x32 .f32 := Host.absf main_arg8
  fn_part2 (F := F) main_arg9 main_arg10 main_arg11 main_arg12 main_arg13 main_v32 main_v33

def fn {F : FTy → Type} [FloatOps F] (main_arg0 : FVec F S30000x2 .f32) (main_arg1 : FVec F S30000x512 .f32) (main_arg2 : IVec S2x480000 32) (main_arg3 : FVec F S32x2 .f32) (main_arg4 : FVec F S32 .f32) (main_arg5 : FVec F S32 .f32) (main_arg6 : FVec F S32 .f32) (main_arg7 : FVec F S_ .f32) (main_arg8 : FVec F S32x32 .f32) (main_arg9 : FVec F S32 .f32) (main_arg10 : FVec F S32x32 .f32) (main_arg11 : FVec F S32 .f32) (main_arg12 : FVec F S1x32 .f32) (main_arg13 : FVec F S1 .f32) : IVec S_ 1 :=
  let main_v0 : FVec F S30000x2 .f32 := Host.absf main_arg0
  let main_cst : FVec F S_ .f32 := constant S_ .f32 0x7F800000#32
  let main_v1 : FVec F S30000x2 .f32 := broadcastInDim S30000x2 ![] bcast_S_S30000x2 main_cst
  let main_v2 : IVec S30000x2 1 := cmpf .olt main_v0 main_v1
  let main_c : IVec S_ 1 := constantI S_ 1 1#1
  let main_v3 : IVec S_ 1 := (fun x v => Host.reduce IntOp.andi x v reducesTo_S30000x2_S_d0_1 h_S_) main_v2 main_c
  let main_v4 : FVec F S30000x512 .f32 := Host.absf main_arg1
  let main_cst_0 : FVec F S_ .f32 := constant S_ .f32 0x7F800000#32
  let main_v5 : FVec F S30000x512 .f32 := broadcastInDim S30000x512 ![] bcast_S_S30000x512 main_cst_0
  let main_v6 : IVec S30000x512 1 := cmpf .olt main_v4 main_v5
  let main_c_1 : IVec S_ 1 := constantI S_ 1 1#1
  let main_v7 : IVec S_ 1 := (fun x v => Host.reduce IntOp.andi x v reducesTo_S30000x512_S_d0_1 h_S_) main_v6 main_c_1
  let main_v8 : IVec S_ 1 := andi main_v3 main_v7
  let main_v9 : FVec F S32x2 .f32 := Host.absf main_arg3
  let main_cst_2 : FVec F S_ .f32 := constant S_ .f32 0x7F800000#32
  let main_v10 : FVec F S32x2 .f32 := broadcastInDim S32x2 ![] bcast_S_S32x2 main_cst_2
  let main_v11 : IVec S32x2 1 := cmpf .olt main_v9 main_v10
  let main_c_3 : IVec S_ 1 := constantI S_ 1 1#1
  let main_v12 : IVec S_ 1 := (fun x v => Host.reduce IntOp.andi x v reducesTo_S32x2_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_arg9 main_arg10 main_arg11 main_arg12 main_arg13 main_v13 main_v16
-- ==== Kernel.lean ====
abbrev S30000x2 : Shape := ⟨2, ![30000, 2]⟩
abbrev S30000x512 : Shape := ⟨2, ![30000, 512]⟩
abbrev S2x480000 : Shape := ⟨2, ![2, 480000]⟩
abbrev S32x2 : Shape := ⟨2, ![32, 2]⟩
abbrev S32 : Shape := ⟨1, ![32]⟩
abbrev S_ : Shape := ⟨0, ![]⟩
abbrev S32x32 : Shape := ⟨2, ![32, 32]⟩
abbrev S1x32 : Shape := ⟨2, ![1, 32]⟩
abbrev S1 : Shape := ⟨1, ![1]⟩
abbrev S2x30000 : Shape := ⟨2, ![2, 30000]⟩
abbrev S32x1 : Shape := ⟨2, ![32, 1]⟩
abbrev S1x1 : Shape := ⟨2, ![1, 1]⟩
abbrev S32x30000 : Shape := ⟨2, ![32, 30000]⟩
abbrev S30000x32 : Shape := ⟨2, ![30000, 32]⟩
abbrev S3000x512 : Shape := ⟨2, ![3000, 512]⟩
abbrev S3000 : Shape := ⟨1, ![3000]⟩
abbrev S3000x1 : Shape := ⟨2, ![3000, 1]⟩
abbrev S1x480000 : Shape := ⟨2, ![1, 480000]⟩
abbrev S480000 : Shape := ⟨1, ![480000]⟩
abbrev S480000x1 : Shape := ⟨2, ![480000, 1]⟩
abbrev S480000x512 : Shape := ⟨2, ![480000, 512]⟩
abbrev S480000x32 : Shape := ⟨2, ![480000, 32]⟩
abbrev S30000 : Shape := ⟨1, ![30000]⟩
abbrev S1x30000 : Shape := ⟨2, ![1, 30000]⟩

abbrev nBuf : Space → Nat
  | .hbm => 76
  | .vmem => 20
  | .smem => 0
  | _ => 0

abbrev bufTy : (tb : Table) → Fin (tcTables nBuf tb) → BufTy
  | .hbm, ⟨0, _⟩ => ⟨S30000x2, .f32⟩
  | .hbm, ⟨1, _⟩ => ⟨S30000x512, .f32⟩
  | .hbm, ⟨2, _⟩ => ⟨S2x480000, .i32⟩
  | .hbm, ⟨3, _⟩ => ⟨S32x2, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32x32, .f32⟩
  | .hbm, ⟨9, _⟩ => ⟨S32, .f32⟩
  | .hbm, ⟨10, _⟩ => ⟨S32x32, .f32⟩
  | .hbm, ⟨11, _⟩ => ⟨S32, .f32⟩
  | .hbm, ⟨12, _⟩ => ⟨S1x32, .f32⟩
  | .hbm, ⟨13, _⟩ => ⟨S1, .f32⟩
  | .hbm, ⟨14, _⟩ => ⟨S2x30000, .f32⟩
  | .hbm, ⟨15, _⟩ => ⟨S32x1, .f32⟩
  | .hbm, ⟨16, _⟩ => ⟨S32x1, .f32⟩
  | .hbm, ⟨17, _⟩ => ⟨S32x1, .f32⟩
  | .hbm, ⟨18, _⟩ => ⟨S1x1, .f32⟩
  | .hbm, ⟨19, _⟩ => ⟨S32x1, .f32⟩
  | .hbm, ⟨20, _⟩ => ⟨S32x30000, .f32⟩
  | .hbm, ⟨21, _⟩ => ⟨S30000x32, .f32⟩
  | .hbm, ⟨22, _⟩ => ⟨S30000x512, .f32⟩
  | .hbm, ⟨23, _⟩ => ⟨S1x480000, .i32⟩
  | .hbm, ⟨24, _⟩ => ⟨S480000, .i32⟩
  | .hbm, ⟨25, _⟩ => ⟨S1x480000, .i32⟩
  | .hbm, ⟨26, _⟩ => ⟨S480000, .i32⟩
  | .hbm, ⟨27, _⟩ => ⟨S_, .i32⟩
  | .hbm, ⟨28, _⟩ => ⟨S480000, .i32⟩
  | .hbm, ⟨29, _⟩ => ⟨S480000, .i1⟩
  | .hbm, ⟨30, _⟩ => ⟨S_, .i32⟩
  | .hbm, ⟨31, _⟩ => ⟨S480000, .i32⟩
  | .hbm, ⟨32, _⟩ => ⟨S480000, .i32⟩
  | .hbm, ⟨33, _⟩ => ⟨S480000, .i32⟩
  | .hbm, ⟨34, _⟩ => ⟨S480000x1, .i32⟩
  | .hbm, ⟨35, _⟩ => ⟨S480000x512, .f32⟩
  | .hbm, ⟨36, _⟩ => ⟨S_, .i32⟩
  | .hbm, ⟨37, _⟩ => ⟨S480000, .i32⟩
  | .hbm, ⟨38, _⟩ => ⟨S480000, .i1⟩
  | .hbm, ⟨39, _⟩ => ⟨S_, .i32⟩
  | .hbm, ⟨40, _⟩ => ⟨S480000, .i32⟩
  | .hbm, ⟨41, _⟩ => ⟨S480000, .i32⟩
  | .hbm, ⟨42, _⟩ => ⟨S480000, .i32⟩
  | .hbm, ⟨43, _⟩ => ⟨S480000x1, .i32⟩
  | .hbm, ⟨44, _⟩ => ⟨S480000x512, .f32⟩
  | .hbm, ⟨45, _⟩ => ⟨S480000x512, .f32⟩
  | .hbm, ⟨46, _⟩ => ⟨S_, .f32⟩
  | .hbm, ⟨47, _⟩ => ⟨S480000, .f32⟩
  | .hbm, ⟨48, _⟩ => ⟨S480000x1, .f32⟩
  | .hbm, ⟨49, _⟩ => ⟨S_, .i32⟩
  | .hbm, ⟨50, _⟩ => ⟨S480000, .i32⟩
  | .hbm, ⟨51, _⟩ => ⟨S480000, .i1⟩
  | .hbm, ⟨52, _⟩ => ⟨S_, .i32⟩
  | .hbm, ⟨53, _⟩ => ⟨S480000, .i32⟩
  | .hbm, ⟨54, _⟩ => ⟨S480000, .i32⟩
  | .hbm, ⟨55, _⟩ => ⟨S480000, .i32⟩
  | .hbm, ⟨56, _⟩ => ⟨S480000x1, .i32⟩
  | .hbm, ⟨57, _⟩ => ⟨S480000x32, .f32⟩
  | .hbm, ⟨58, _⟩ => ⟨S480000x32, .f32⟩
  | .hbm, ⟨59, _⟩ => ⟨S480000x32, .f32⟩
  | .hbm, ⟨60, _⟩ => ⟨S_, .f32⟩
  | .hbm, ⟨61, _⟩ => ⟨S30000x32, .f32⟩
  | .hbm, ⟨62, _⟩ => ⟨S480000x1, .i32⟩
  | .hbm, ⟨63, _⟩ => ⟨S30000x32, .f32⟩
  | .hbm, ⟨64, _⟩ => ⟨S_, .f32⟩
  | .hbm, ⟨65, _⟩ => ⟨S480000, .f32⟩
  | .hbm, ⟨66, _⟩ => ⟨S_, .f32⟩
  | .hbm, ⟨67, _⟩ => ⟨S30000, .f32⟩
  | .hbm, ⟨68, _⟩ => ⟨S480000x1, .i32⟩
  | .hbm, ⟨69, _⟩ => ⟨S30000, .f32⟩
  | .hbm, ⟨70, _⟩ => ⟨S32x30000, .f32⟩
  | .hbm, ⟨71, _⟩ => ⟨S1x30000, .f32⟩
  | .hbm, ⟨72, _⟩ => ⟨S32x1, .f32⟩
  | .hbm, ⟨73, _⟩ => ⟨S1x1, .f32⟩
  | .hbm, ⟨74, _⟩ => ⟨S1x30000, .f32⟩
  | .hbm, ⟨75, _⟩ => ⟨S30000, .f32⟩
  | .local _ .vmem, ⟨0, _⟩ => ⟨S2x30000, .f32⟩
  | .local _ .vmem, ⟨1, _⟩ => ⟨S32x2, .f32⟩
  | .local _ .vmem, ⟨2, _⟩ => ⟨S32x1, .f32⟩
  | .local _ .vmem, ⟨3, _⟩ => ⟨S32x1, .f32⟩
  | .local _ .vmem, ⟨4, _⟩ => ⟨S32x1, .f32⟩
  | .local _ .vmem, ⟨5, _⟩ => ⟨S1x1, .f32⟩
  | .local _ .vmem, ⟨6, _⟩ => ⟨S32x32, .f32⟩
  | .local _ .vmem, ⟨7, _⟩ => ⟨S32x1, .f32⟩
  | .local _ .vmem, ⟨8, _⟩ => ⟨S32x30000, .f32⟩
  | .local _ .vmem, ⟨9, _⟩ => ⟨S3000x512, .f32⟩
  | .local _ .vmem, ⟨10, _⟩ => ⟨S3000x512, .f32⟩
  | .local _ .vmem, ⟨11, _⟩ => ⟨S3000x512, .f32⟩
  | .local _ .vmem, ⟨12, _⟩ => ⟨S3000x512, .f32⟩
  | .local _ .vmem, ⟨13, _⟩ => ⟨S32x30000, .f32⟩
  | .local _ .vmem, ⟨14, _⟩ => ⟨S1x30000, .f32⟩
  | .local _ .vmem, ⟨15, _⟩ => ⟨S32x32, .f32⟩
  | .local _ .vmem, ⟨16, _⟩ => ⟨S32x1, .f32⟩
  | .local _ .vmem, ⟨17, _⟩ => ⟨S1x32, .f32⟩
  | .local _ .vmem, ⟨18, _⟩ => ⟨S1x1, .f32⟩
  | .local _ .vmem, ⟨19, _⟩ => ⟨S1x30000, .f32⟩
  | _, _ => ⟨S30000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_1 : Ref sig .tc := ⟨.hbm, 36, rfl⟩
abbrev main_v20 : Ref sig .tc := ⟨.hbm, 37, rfl⟩
abbrev main_v21 : Ref sig .tc := ⟨.hbm, 38, rfl⟩
abbrev main_c_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst : Ref sig .tc := ⟨.hbm, 46, rfl⟩
abbrev main_v28 : Ref sig .tc := ⟨.hbm, 47, rfl⟩
abbrev main_v29 : Ref sig .tc := ⟨.hbm, 48, rfl⟩
abbrev main_c_3 : Ref sig .tc := ⟨.hbm, 49, rfl⟩
abbrev main_v30 : Ref sig .tc := ⟨.hbm, 50, rfl⟩
abbrev main_v31 : Ref sig .tc := ⟨.hbm, 51, rfl⟩
abbrev main_c_4 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_5 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_cst_7 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc2_stg0_0 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc2_sem0_0 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem6_0 : DmaSem sig := 19

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x30000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x30000 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S32x30000 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x30000 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x30000 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

class Facts₀ : Prop where
  transposes_S30000x2_S2x30000_1_0 : S30000x2.Transposes [1, 0] S2x30000
  shapeCasts_S32_S32x1 : S32.ShapeCasts S32x1
  shapeCasts_S_S1x1 : S_.ShapeCasts S1x1
  inb_S2x30000_S2x30000_0_0 : ∀ a, (![0, 0] : Fin 2 → Nat) a + S2x30000.size a ≤ S2x30000.size a
  h_S2x30000 : 0 < S2x30000.numel
  shapeCasts_S2x30000_S2x30000 : S2x30000.ShapeCasts S2x30000
  bitsLt_bf16_f32 : FTy.bits .bf16 < FTy.bits .f32
  inb_S32x2_S32x2_0_0 : ∀ a, (![0, 0] : Fin 2 → Nat) a + S32x2.size a ≤ S32x2.size a
  h_S32x2 : 0 < S32x2.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x30000 : S32x1.Broadcasts S32x30000
  reduces_S32x30000_S32 : S32x30000.Reduces [1] S32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S32x30000 : S1x1.Broadcasts S32x30000
  inb_S32x32_S32x32_0_0 : ∀ a, (![0, 0] : Fin 2 → Nat) a + S32x32.size a ≤ S32x32.size a
  h_S32x32 : 0 < S32x32.numel
  inb_S32x30000_S32x30000_0_0 : ∀ a, (![0, 0] : Fin 2 → Nat) a + S32x30000.size a ≤ S32x30000.size a
  h_S32x30000 : 0 < S32x30000.numel
  transposes_S32x30000_S30000x32_1_0 : S32x30000.Transposes [1, 0] S30000x32
  inb_S3000x512_S3000x512_0_0 : ∀ a, (![0, 0] : Fin 2 → Nat) a + S3000x512.size a ≤ S3000x512.size a
  h_S3000x512 : 0 < S3000x512.numel
  reduces_S3000x512_S3000 : S3000x512.Reduces [1] S3000
  shapeCasts_S3000_S3000x1 : S3000.ShapeCasts S3000x1
  broadcasts_S3000x1_S3000x512 : S3000x1.Broadcasts S3000x512
  slices_S2x480000_S1x480000_0_0 : S2x480000.Slices ![0, 0] S1x480000
  shapeCasts_S1x480000_S480000 : S1x480000.ShapeCasts S480000
  slices_S2x480000_S1x480000_1_0 : S2x480000.Slices ![1, 0] S1x480000
  bcast_S_S480000 : S_.BroadcastsInDim S480000 (![] : Fin 0 → Fin S480000.rank)
  bcast_S480000_S480000x1_0 : S480000.BroadcastsInDim S480000x1 (![0] : Fin 1 → Fin S480000x1.rank)
  reducesTo_S480000x512_S480000_d1 : S480000x512.ReducesTo [1] S480000
  h_S_ : 0 < S_.numel
  bcast_S480000x1_S480000x32_0_1 : S480000x1.BroadcastsInDim S480000x32 (![0, 1] : Fin 2 → Fin S480000x32.rank)
  bcast_S_S30000x32 : S_.BroadcastsInDim S30000x32 (![] : Fin 0 → Fin S30000x32.rank)
  bcast_S_S30000 : S_.BroadcastsInDim S30000 (![] : Fin 0 → Fin S30000.rank)
  transposes_S30000x32_S32x30000_1_0 : S30000x32.Transposes [1, 0] S32x30000
  shapeCasts_S30000_S1x30000 : S30000.ShapeCasts S1x30000
  shapeCasts_S1_S1x1 : S1.ShapeCasts S1x1
  shapeCasts_S32x30000_S32x30000 : S32x30000.ShapeCasts S32x30000
  inb_S1x30000_S1x30000_0_0 : ∀ a, (![0, 0] : Fin 2 → Nat) a + S1x30000.size a ≤ S1x30000.size a
  h_S1x30000 : 0 < S1x30000.numel
  shapeCasts_S1x30000_S1x30000 : S1x30000.ShapeCasts S1x30000
  broadcasts_S1x30000_S32x30000 : S1x30000.Broadcasts S32x30000
  inb_S1x32_S1x32_0_0 : ∀ a, (![0, 0] : Fin 2 → Nat) a + S1x32.size a ≤ S1x32.size a
  h_S1x32 : 0 < S1x32.numel
  broadcasts_S1x1_S1x30000 : S1x1.Broadcasts S1x30000
  shapeCasts_S1x30000_S30000 : S1x30000.ShapeCasts S30000
  dot_S32x2_S2x30000_S32x30000_1_0_0_1_n_n_wf : DotDims.WF S32x2 S2x30000 S32x30000 [1] [0] [0] [1] [] []
  dot_S32x32_S32x30000_S32x30000_1_0_0_1_n_n_wf : DotDims.WF S32x32 S32x30000 S32x30000 [1] [0] [0] [1] [] []
  gather_S30000x512_S480000x1_S480000x512_1_0_n_n_0_1_1512_wf : GatherDims.WF S30000x512 S480000x1 S480000x512 [1] [0] [] [0] [] 1 ![1, 512]
  gather_S30000x32_S480000x1_S480000x32_1_0_n_n_0_1_132_wf : GatherDims.WF S30000x32 S480000x1 S480000x32 [1] [0] [] [0] [] 1 ![1, 32]
  scatter_S30000x32_S480000x1_S480000x32_1_0_0_1_wf : ScatterDims.WF S30000x32 S480000x1 S480000x32 [1] [0] [0] 1
  scatter_S30000_S480000x1_S480000_n_0_0_1_wf : ScatterDims.WF S30000 S480000x1 S480000 [] [0] [0] 1
  dot_S1x32_S32x30000_S1x30000_1_0_0_1_n_n_wf : DotDims.WF S1x32 S32x30000 S1x30000 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2x30000.size a ≤ S2x30000.size a
  hwx0_0 : ∀ i : grid0.Coords, EltTy.bits .f32 = 32 ∨ (Rect.block (s := S2x30000) S2x30000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x2.size a ≤ S32x2.size a
  hwx0_1 : ∀ i : grid0.Coords, EltTy.bits .f32 = 32 ∨ (Rect.block (s := S32x2) S32x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S32x1.size a
  hwx0_3 : ∀ i : grid0.Coords, EltTy.bits .f32 = 32 ∨ (Rect.block (s := S32x1) S32x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S32x1.size a
  hwx0_4 : ∀ i : grid0.Coords, EltTy.bits .f32 = 32 ∨ (Rect.block (s := S32x1) S32x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x32.size a ≤ S32x32.size a
  hwx0_6 : ∀ i : grid0.Coords, EltTy.bits .f32 = 32 ∨ (Rect.block (s := S32x32) S32x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x1.size a ≤ S32x1.size a
  hwx0_7 : ∀ i : grid0.Coords, EltTy.bits .f32 = 32 ∨ (Rect.block (s := S32x1) S32x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x30000.size a ≤ S32x30000.size a
  hwx0_8 : ∀ i : grid0.Coords, EltTy.bits .f32 = 32 ∨ (Rect.block (s := S32x30000) S32x30000.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3000x512.size a ≤ S30000x512.size a
  hwx1_0 : ∀ i : grid1.Coords, EltTy.bits .f32 = 32 ∨ (Rect.block (s := S30000x512) S3000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3000x512.size a ≤ S30000x512.size a
  hwx1_1 : ∀ i : grid1.Coords, EltTy.bits .f32 = 32 ∨ (Rect.block (s := S30000x512) S3000x512.size (cc1_transform_1 i) (hinb1_1 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S32x30000.size a ≤ S32x30000.size a
  hwx2_0 : ∀ i : grid2.Coords, EltTy.bits .f32 = 32 ∨ (Rect.block (s := S32x30000) S32x30000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x30000.size a ≤ S1x30000.size a
  hwx2_1 : ∀ i : grid2.Coords, EltTy.bits .f32 = 32 ∨ (Rect.block (s := S1x30000) S1x30000.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x32.size a ≤ S32x32.size a
  hwx2_2 : ∀ i : grid2.Coords, EltTy.bits .f32 = 32 ∨ (Rect.block (s := S32x32) S32x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x1.size a ≤ S32x1.size a
  hwx2_3 : ∀ i : grid2.Coords, EltTy.bits .f32 = 32 ∨ (Rect.block (s := S32x1) S32x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x30000.size a ≤ S1x30000.size a
  hwx2_6 : ∀ i : grid2.Coords, EltTy.bits .f32 = 32 ∨ (Rect.block (s := S1x30000) S1x30000.size (cc2_transform_6 i) (hinb2_6 i)).WholeWords (EltTy.packing .f32)

variable [Facts₀]

def dot_S32x2_S2x30000_S32x30000_1_0_0_1_n_n : DotDims S32x2 S2x30000 S32x30000 where
  lhsContracting := [1]
  rhsContracting := [0]
  lhsNonContracting := [0]
  rhsNonContracting := [1]
  lhsBatch := []
  rhsBatch := []
  wf := dot_S32x2_S2x30000_S32x30000_1_0_0_1_n_n_wf
def dot_S32x32_S32x30000_S32x30000_1_0_0_1_n_n : DotDims S32x32 S32x30000 S32x30000 where
  lhsContracting := [1]
  rhsContracting := [0]
  lhsNonContracting := [0]
  rhsNonContracting := [1]
  lhsBatch := []
  rhsBatch := []
  wf := dot_S32x32_S32x30000_S32x30000_1_0_0_1_n_n_wf
def gather_S30000x512_S480000x1_S480000x512_1_0_n_n_0_1_1512 : GatherDims S30000x512 S480000x1 S480000x512 where
  offsetDims := [1]
  collapsedSliceDims := [0]
  operandBatchingDims := []
  startIndicesBatchingDims := []
  startIndexMap := [0]
  indexVectorDim := 1
  sliceSizes := ![1, 512]
  wf := gather_S30000x512_S480000x1_S480000x512_1_0_n_n_0_1_1512_wf
def gather_S30000x32_S480000x1_S480000x32_1_0_n_n_0_1_132 : GatherDims S30000x32 S480000x1 S480000x32 where
  offsetDims := [1]
  collapsedSliceDims := [0]
  operandBatchingDims := []
  startIndicesBatchingDims := []
  startIndexMap := [0]
  indexVectorDim := 1
  sliceSizes := ![1, 32]
  wf := gather_S30000x32_S480000x1_S480000x32_1_0_n_n_0_1_132_wf
def scatter_S30000x32_S480000x1_S480000x32_1_0_0_1 : ScatterDims S30000x32 S480000x1 S480000x32 where
  updateWindowDims := [1]
  insertedWindowDims := [0]
  scatterDimsToOperandDims := [0]
  indexVectorDim := 1
  wf := scatter_S30000x32_S480000x1_S480000x32_1_0_0_1_wf
def scatter_S30000_S480000x1_S480000_n_0_0_1 : ScatterDims S30000 S480000x1 S480000 where
  updateWindowDims := []
  insertedWindowDims := [0]
  scatterDimsToOperandDims := [0]
  indexVectorDim := 1
  wf := scatter_S30000_S480000x1_S480000_n_0_0_1_wf
def dot_S1x32_S32x30000_S1x30000_1_0_0_1_n_n : DotDims S1x32 S32x30000 S1x30000 where
  lhsContracting := [1]
  rhsContracting := [0]
  lhsNonContracting := [0]
  rhsNonContracting := [1]
  lhsBatch := []
  rhsBatch := []
  wf := dot_S1x32_S32x30000_S1x30000_1_0_0_1_n_n_wf

abbrev win0_0 : Pipeline.Window sig grid0 :=
  Pipeline.Window.ofSpec (Memref.whole main_v0) S2x30000.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S32x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S32x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S32x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S32x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S32x30000.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg1) S3000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S3000x512.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v46) S32x30000.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v47) S1x30000.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S32x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S32x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v50) S1x30000.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S30000x2 : Shape := ⟨2, ![30000, 2]⟩
abbrev S30000x512 : Shape := ⟨2, ![30000, 512]⟩
abbrev S2x480000 : Shape := ⟨2, ![2, 480000]⟩
abbrev S32x2 : Shape := ⟨2, ![32, 2]⟩
abbrev S32 : Shape := ⟨1, ![32]⟩
abbrev S_ : Shape := ⟨0, ![]⟩
abbrev S32x32 : Shape := ⟨2, ![32, 32]⟩
abbrev S1x32 : Shape := ⟨2, ![1, 32]⟩
abbrev S1 : Shape := ⟨1, ![1]⟩
abbrev S2x32 : Shape := ⟨2, ![2, 32]⟩
abbrev S30000x32 : Shape := ⟨2, ![30000, 32]⟩
abbrev S30000 : Shape := ⟨1, ![30000]⟩
abbrev S30000x1 : Shape := ⟨2, ![30000, 1]⟩
abbrev S1x480000 : Shape := ⟨2, ![1, 480000]⟩
abbrev S480000 : Shape := ⟨1, ![480000]⟩
abbrev S480000x1 : Shape := ⟨2, ![480000, 1]⟩
abbrev S480000x512 : Shape := ⟨2, ![480000, 512]⟩
abbrev S480000x32 : Shape := ⟨2, ![480000, 32]⟩
abbrev S32x1 : Shape := ⟨2, ![32, 1]⟩
abbrev S1x1 : Shape := ⟨2, ![1, 1]⟩

abbrev nBuf : Space → Nat
  | .hbm => 134
  | .vmem => 0
  | .smem => 0
  | _ => 0

abbrev hbmTy0_0 (i : Nat) : BufTy := match i % 128 with
  | 0 => ⟨S30000x2, .f32⟩
  | 1 => ⟨S30000x512, .f32⟩
  | 2 => ⟨S2x480000, .i32⟩
  | 3 => ⟨S32x2, .f32⟩
  | 4 => ⟨S32, .f32⟩
  | 5 => ⟨S32, .f32⟩
  | 6 => ⟨S32, .f32⟩
  | 7 => ⟨S_, .f32⟩
  | 8 => ⟨S32x32, .f32⟩
  | 9 => ⟨S32, .f32⟩
  | 10 => ⟨S32x32, .f32⟩
  | 11 => ⟨S32, .f32⟩
  | 12 => ⟨S1x32, .f32⟩
  | 13 => ⟨S1, .f32⟩
  | 14 => ⟨S2x32, .f32⟩
  | 15 => ⟨S30000x32, .f32⟩
  | 16 => ⟨S1x32, .f32⟩
  | 17 => ⟨S30000x32, .f32⟩
  | 18 => ⟨S30000x32, .f32⟩
  | 19 => ⟨S_, .f32⟩
  | 20 => ⟨S32, .f32⟩
  | 21 => ⟨S_, .f32⟩
  | 22 => ⟨S32, .f32⟩
  | 23 => ⟨S32, .f32⟩
  | 24 => ⟨S1x32, .f32⟩
  | 25 => ⟨S30000x32, .f32⟩
  | 26 => ⟨S30000x32, .f32⟩
  | 27 => ⟨S30000x32, .f32⟩
  | 28 => ⟨S_, .f32⟩
  | 29 => ⟨S32, .f32⟩
  | 30 => ⟨S_, .f32⟩
  | 31 => ⟨S32, .f32⟩
  | 32 => ⟨S32, .f32⟩
  | 33 => ⟨S1x32, .f32⟩
  | 34 => ⟨S30000x32, .f32⟩
  | 35 => ⟨S30000x32, .f32⟩
  | 36 => ⟨S_, .f32⟩
  | 37 => ⟨S32, .f32⟩
  | 38 => ⟨S32, .f32⟩
  | 39 => ⟨S32, .f32⟩
  | 40 => ⟨S1x32, .f32⟩
  | 41 => ⟨S30000x32, .f32⟩
  | 42 => ⟨S30000x32, .f32⟩
  | 43 => ⟨S1x32, .f32⟩
  | 44 => ⟨S30000x32, .f32⟩
  | 45 => ⟨S30000x32, .f32⟩
  | 46 => ⟨S1x32, .f32⟩
  | 47 => ⟨S30000x32, .f32⟩
  | 48 => ⟨S30000x32, .f32⟩
  | 49 => ⟨S_, .f32⟩
  | 50 => ⟨S30000x32, .f32⟩
  | 51 => ⟨S30000x32, .i1⟩
  | 52 => ⟨S30000x32, .f32⟩
  | 53 => ⟨S30000x32, .f32⟩
  | 54 => ⟨S30000x32, .f32⟩
  | 55 => ⟨S32x32, .f32⟩
  | 56 => ⟨S30000x32, .f32⟩
  | 57 => ⟨S1x32, .f32⟩
  | 58 => ⟨S30000x32, .f32⟩
  | 59 => ⟨S30000x32, .f32⟩
  | 60 => ⟨S30000x512, .f32⟩
  | 61 => ⟨S_, .f32⟩
  | 62 => ⟨S30000, .f32⟩
  | 63 => ⟨S30000x1, .f32⟩
  | 64 => ⟨S30000x1, .f32⟩
  | 65 => ⟨S_, .f32⟩
  | 66 => ⟨S30000x1, .f32⟩
  | 67 => ⟨S30000x1, .f32⟩
  | 68 => ⟨S30000x512, .f32⟩
  | 69 => ⟨S30000x512, .f32⟩
  | 70 => ⟨S1x480000, .i32⟩
  | 71 => ⟨S480000, .i32⟩
  | 72 => ⟨S1x480000, .i32⟩
  | 73 => ⟨S480000, .i32⟩
  | 74 => ⟨S_, .i32⟩
  | 75 => ⟨S480000, .i32⟩
  | 76 => ⟨S480000, .i1⟩
  | 77 => ⟨S_, .i32⟩
  | 78 => ⟨S480000, .i32⟩
  | 79 => ⟨S480000, .i32⟩
  | 80 => ⟨S480000, .i32⟩
  | 81 => ⟨S480000x1, .i32⟩
  | 82 => ⟨S480000x512, .f32⟩
  | 83 => ⟨S_, .i32⟩
  | 84 => ⟨S480000, .i32⟩
  | 85 => ⟨S480000, .i1⟩
  | 86 => ⟨S_, .i32⟩
  | 87 => ⟨S480000, .i32⟩
  | 88 => ⟨S480000, .i32⟩
  | 89 => ⟨S480000, .i32⟩
  | 90 => ⟨S480000x1, .i32⟩
  | 91 => ⟨S480000x512, .f32⟩
  | 92 => ⟨S480000x512, .f32⟩
  | 93 => ⟨S_, .f32⟩
  | 94 => ⟨S480000, .f32⟩
  | 95 => ⟨S480000x1, .f32⟩
  | 96 => ⟨S_, .i32⟩
  | 97 => ⟨S480000, .i32⟩
  | 98 => ⟨S480000, .i1⟩
  | 99 => ⟨S_, .i32⟩
  | 100 => ⟨S480000, .i32⟩
  | 101 => ⟨S480000, .i32⟩
  | 102 => ⟨S480000, .i32⟩
  | 103 => ⟨S480000x1, .i32⟩
  | 104 => ⟨S480000x32, .f32⟩
  | 105 => ⟨S480000x32, .f32⟩
  | 106 => ⟨S480000x32, .f32⟩
  | 107 => ⟨S_, .f32⟩
  | 108 => ⟨S30000x32, .f32⟩
  | 109 => ⟨S480000x1, .i32⟩
  | 110 => ⟨S30000x32, .f32⟩
  | 111 => ⟨S_, .f32⟩
  | 112 => ⟨S480000, .f32⟩
  | 113 => ⟨S_, .f32⟩
  | 114 => ⟨S30000, .f32⟩
  | 115 => ⟨S480000x1, .i32⟩
  | 116 => ⟨S30000, .f32⟩
  | 117 => ⟨S_, .f32⟩
  | 118 => ⟨S30000, .f32⟩
  | 119 => ⟨S30000, .f32⟩
  | 120 => ⟨S30000x1, .f32⟩
  | 121 => ⟨S30000x32, .f32⟩
  | 122 => ⟨S30000x32, .f32⟩
  | 123 => ⟨S32x32, .f32⟩
  | 124 => ⟨S30000x32, .f32⟩
  | 125 => ⟨S1x32, .f32⟩
  | 126 => ⟨S30000x32, .f32⟩
  | 127 => ⟨S30000x32, .f32⟩
  | _ => ⟨S30000x2, .f32⟩

abbrev hbmTy0_1 (i : Nat) : BufTy := match i % 128 with
  | 0 => ⟨S32x1, .f32⟩
  | 1 => ⟨S30000x1, .f32⟩
  | 2 => ⟨S1x1, .f32⟩
  | 3 => ⟨S30000x1, .f32⟩
  | 4 => ⟨S30000x1, .f32⟩
  | 5 => ⟨S30000, .f32⟩
  | _ => ⟨S30000x2, .f32⟩

abbrev hbmTy (i : Nat) : BufTy := match i / 128 with
  | 0 => hbmTy0_0 i
  | 1 => hbmTy0_1 i
  | _ => ⟨S30000x2, .f32⟩

abbrev bufTy : (tb : Table) → Fin (tcTables nBuf tb) → BufTy
  | .hbm, ⟨i, _⟩ => hbmTy i
  | _, _ => ⟨S30000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_call1_v0 : Ref sig .tc := ⟨.hbm, 60, rfl⟩
abbrev main_call1_cst : Ref sig .tc := ⟨.hbm, 61, rfl⟩
abbrev main_call1_v1 : Ref sig .tc := ⟨.hbm, 62, rfl⟩
abbrev main_call1_v2 : Ref sig .tc := ⟨.hbm, 63, rfl⟩
abbrev main_v40 : Ref sig .tc := ⟨.hbm, 64, rfl⟩
abbrev main_cst_5 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c : Ref sig .tc := ⟨.hbm, 74, rfl⟩
abbrev main_v49 : Ref sig .tc := ⟨.hbm, 75, rfl⟩
abbrev main_v50 : Ref sig .tc := ⟨.hbm, 76, rfl⟩
abbrev main_c_6 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c_7 : Ref sig .tc := ⟨.hbm, 83, rfl⟩
abbrev main_v56 : Ref sig .tc := ⟨.hbm, 84, rfl⟩
abbrev main_v57 : Ref sig .tc := ⟨.hbm, 85, rfl⟩
abbrev main_c_8 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_9 : Ref sig .tc := ⟨.hbm, 93, rfl⟩
abbrev main_v64 : Ref sig .tc := ⟨.hbm, 94, rfl⟩
abbrev main_v65 : Ref sig .tc := ⟨.hbm, 95, rfl⟩
abbrev main_c_10 : Ref sig .tc := ⟨.hbm, 96, rfl⟩
abbrev main_v66 : Ref sig .tc := ⟨.hbm, 97, rfl⟩
abbrev main_v67 : Ref sig .tc := ⟨.hbm, 98, rfl⟩
abbrev main_c_11 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_12 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_13 : Ref sig .tc := ⟨.hbm, 111, rfl⟩
abbrev main_v78 : Ref sig .tc := ⟨.hbm, 112, rfl⟩
abbrev main_cst_14 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_15 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩

abbrev nD : Nat := 1
abbrev τ : Topo := Topo.v7x

variable {F : FTy → Type} [FloatOps F]

class Facts₀ : Prop where
  transposes_S32x2_S2x32_1_0 : S32x2.Transposes [1, 0] S2x32
  bcast_S32_S1x32_1 : S32.BroadcastsInDim S1x32 (![1] : Fin 1 → Fin S1x32.rank)
  bcast_S1x32_S30000x32_0_1 : S1x32.BroadcastsInDim S30000x32 (![0, 1] : Fin 2 → Fin S30000x32.rank)
  reducesTo_S30000x32_S32_d0 : S30000x32.ReducesTo [0] S32
  h_S_ : 0 < S_.numel
  bcast_S_S32 : S_.BroadcastsInDim S32 (![] : Fin 0 → Fin S32.rank)
  bcast_S_S30000x32 : S_.BroadcastsInDim S30000x32 (![] : Fin 0 → Fin S30000x32.rank)
  transposes_S32x32_S32x32_1_0 : S32x32.Transposes [1, 0] S32x32
  reducesTo_S30000x512_S30000_d1 : S30000x512.ReducesTo [1] S30000
  bcast_S30000_S30000x1_0 : S30000.BroadcastsInDim S30000x1 (![0] : Fin 1 → Fin S30000x1.rank)
  bcast_S_S30000x1 : S_.BroadcastsInDim S30000x1 (![] : Fin 0 → Fin S30000x1.rank)
  bcast_S30000x1_S30000x512_0_1 : S30000x1.BroadcastsInDim S30000x512 (![0, 1] : Fin 2 → Fin S30000x512.rank)
  slices_S2x480000_S1x480000_0_0 : S2x480000.Slices ![0, 0] S1x480000
  shapeCasts_S1x480000_S480000 : S1x480000.ShapeCasts S480000
  slices_S2x480000_S1x480000_1_0 : S2x480000.Slices ![1, 0] S1x480000
  bcast_S_S480000 : S_.BroadcastsInDim S480000 (![] : Fin 0 → Fin S480000.rank)
  bcast_S480000_S480000x1_0 : S480000.BroadcastsInDim S480000x1 (![0] : Fin 1 → Fin S480000x1.rank)
  reducesTo_S480000x512_S480000_d1 : S480000x512.ReducesTo [1] S480000
  bcast_S480000x1_S480000x32_0_1 : S480000x1.BroadcastsInDim S480000x32 (![0, 1] : Fin 2 → Fin S480000x32.rank)
  bcast_S_S30000 : S_.BroadcastsInDim S30000 (![] : Fin 0 → Fin S30000.rank)
  bcast_S30000x1_S30000x32_0_1 : S30000x1.BroadcastsInDim S30000x32 (![0, 1] : Fin 2 → Fin S30000x32.rank)
  transposes_S1x32_S32x1_1_0 : S1x32.Transposes [1, 0] S32x1
  bcast_S1_S1x1_1 : S1.BroadcastsInDim S1x1 (![1] : Fin 1 → Fin S1x1.rank)
  bcast_S1x1_S30000x1_0_1 : S1x1.BroadcastsInDim S30000x1 (![0, 1] : Fin 2 → Fin S30000x1.rank)
  shapeCasts_S30000x1_S30000 : S30000x1.ShapeCasts S30000
  dot_S30000x2_S2x32_S30000x32_1_0_0_1_n_n_wf : DotDims.WF S30000x2 S2x32 S30000x32 [1] [0] [0] [1] [] []
  dot_S30000x32_S32x32_S30000x32_1_0_0_1_n_n_wf : DotDims.WF S30000x32 S32x32 S30000x32 [1] [0] [0] [1] [] []
  gather_S30000x512_S480000x1_S480000x512_1_0_n_n_0_1_1512_wf : GatherDims.WF S30000x512 S480000x1 S480000x512 [1] [0] [] [0] [] 1 ![1, 512]
  gather_S30000x32_S480000x1_S480000x32_1_0_n_n_0_1_132_wf : GatherDims.WF S30000x32 S480000x1 S480000x32 [1] [0] [] [0] [] 1 ![1, 32]
  scatter_S30000x32_S480000x1_S480000x32_1_0_0_1_wf : ScatterDims.WF S30000x32 S480000x1 S480000x32 [1] [0] [0] 1
  scatter_S30000_S480000x1_S480000_n_0_0_1_wf : ScatterDims.WF S30000 S480000x1 S480000 [] [0] [0] 1
  dot_S30000x32_S32x1_S30000x1_1_0_0_1_n_n_wf : DotDims.WF S30000x32 S32x1 S30000x1 [1] [0] [0] [1] [] []

variable [Facts₀]

def dot_S30000x2_S2x32_S30000x32_1_0_0_1_n_n : DotDims S30000x2 S2x32 S30000x32 where
  lhsContracting := [1]
  rhsContracting := [0]
  lhsNonContracting := [0]
  rhsNonContracting := [1]
  lhsBatch := []
  rhsBatch := []
  wf := dot_S30000x2_S2x32_S30000x32_1_0_0_1_n_n_wf
def dot_S30000x32_S32x32_S30000x32_1_0_0_1_n_n : DotDims S30000x32 S32x32 S30000x32 where
  lhsContracting := [1]
  rhsContracting := [0]
  lhsNonContracting := [0]
  rhsNonContracting := [1]
  lhsBatch := []
  rhsBatch := []
  wf := dot_S30000x32_S32x32_S30000x32_1_0_0_1_n_n_wf
def gather_S30000x512_S480000x1_S480000x512_1_0_n_n_0_1_1512 : GatherDims S30000x512 S480000x1 S480000x512 where
  offsetDims := [1]
  collapsedSliceDims := [0]
  operandBatchingDims := []
  startIndicesBatchingDims := []
  startIndexMap := [0]
  indexVectorDim := 1
  sliceSizes := ![1, 512]
  wf := gather_S30000x512_S480000x1_S480000x512_1_0_n_n_0_1_1512_wf
def gather_S30000x32_S480000x1_S480000x32_1_0_n_n_0_1_132 : GatherDims S30000x32 S480000x1 S480000x32 where
  offsetDims := [1]
  collapsedSliceDims := [0]
  operandBatchingDims := []
  startIndicesBatchingDims := []
  startIndexMap := [0]
  indexVectorDim := 1
  sliceSizes := ![1, 32]
  wf := gather_S30000x32_S480000x1_S480000x32_1_0_n_n_0_1_132_wf
def scatter_S30000x32_S480000x1_S480000x32_1_0_0_1 : ScatterDims S30000x32 S480000x1 S480000x32 where
  updateWindowDims := [1]
  insertedWindowDims := [0]
  scatterDimsToOperandDims := [0]
  indexVectorDim := 1
  wf := scatter_S30000x32_S480000x1_S480000x32_1_0_0_1_wf
def scatter_S30000_S480000x1_S480000_n_0_0_1 : ScatterDims S30000 S480000x1 S480000 where
  updateWindowDims := []
  insertedWindowDims := [0]
  scatterDimsToOperandDims := [0]
  indexVectorDim := 1
  wf := scatter_S30000_S480000x1_S480000_n_0_0_1_wf
def dot_S30000x32_S32x1_S30000x1_1_0_0_1_n_n : DotDims S30000x32 S32x1 S30000x1 where
  lhsContracting := [1]
  rhsContracting := [0]
  lhsNonContracting := [0]
  rhsNonContracting := [1]
  lhsBatch := []
  rhsBatch := []
  wf := dot_S30000x32_S32x1_S30000x1_1_0_0_1_n_n_wf

class Facts : Prop extends Facts₀ where

variable [Facts]
-- ==== Proof.KRun.lean ====
/-
  The idealized kernel's run with its result named.

  The program is three kernel regions among four stretches of host operations. Its run ends with every buffer that
  outlives the regions holding the last stage of a fold of buffer contents through the program: a host stretch maps
  contents to contents, and a region replaces the contents of its arrays by what its grid points write back. The frame
  statement keeps, of that final stage, only the fourteen argument arrays. Here the same run is stated once more with
  the result buffer kept as well: it ends at the final stage read at the result buffer.
-/
import proofs.«133878_j20023137534015_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last stage
    of the fold of contents through the program, and the argument arrays end as launched. -/
theorem run_result : θ_run defs (onTc (τ := τ) (main (F := F))) ⟨m, fun _ => 0, ρ⟩ (fun r => ∀ c : Dev nD,
      r.2.mem ((c.tc : Thread nD τ).loc main_v51) = W7 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v51 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c)⟩)

end Cert.KernelIdeal.KRun

end
-- ==== Proof.Edge.lean ====
/-
  The edge stage as one function.

  Between the dense layers both programs do the same thing with the edge list: for every edge they take the inner
  product of the two end nodes' normalized visual rows, scale the source node's hidden features by it, and add the
  result into the destination node's row; separately they count each node's incoming edges. Nothing about that
  stage is opened here. It is named as ONE function of the normalized rows, the hidden features and the edge
  list, so that once the two programs' normalized rows and hidden features are known to be equal arrays, their
  aggregates are the same function applied to equal arguments.
-/
import proofs.«133878_j20023137534015_1_alg».proof.Proof.Gen.ReferenceIdeal.Read

noncomputable section

namespace Cert.Bridge.Edge

open Cert.ReferenceIdeal Cert.ReferenceIdeal.Gen Cert.ReferenceIdeal.Read Idealize.ShloMosaic

variable {F : FTy → Type} [FloatOps F]

/-- The aggregate: per destination node, the sum over its incoming edges of the edge's cosine weight times the
    source node's hidden features — as a function of the normalized rows `vn`, the hidden features `h` and the
    edge list `ei`. -/
def aggOf (vn : (⟨S30000x512, .f32⟩ : BufTy).Contents (Elt F)) (h : (⟨S30000x32, .f32⟩ : BufTy).Contents (Elt F))
    (ei : (⟨S2x480000, .i32⟩ : BufTy).Contents (Elt F)) : (⟨S30000x32, .f32⟩ : BufTy).Contents (Elt F) :=
  Host.scatterAdd scatter_S30000x32_S480000x1_S480000x32_1_0_0_1 (val_main_v75 (F := F)) (val_main_v76 (F := F) ei)
    (mulf
      (broadcastInDim S480000x32 ![0, 1] bcast_S480000x1_S480000x32_0_1
        (broadcastInDim S480000x1 ![0] bcast_S480000_S480000x1_0
          (Host.reduceAdd
            (mulf (Host.gather gather_S30000x512_S480000x1_S480000x512_1_0_n_n_0_1_1512 vn (val_main_v54 (F := F) ei))
                  (Host.gather gather_S30000x512_S480000x1_S480000x512_1_0_n_n_0_1_1512 vn (val_main_v61 (F := F) ei)))
            (val_main_cst_9 (F := F)) reducesTo_S480000x512_S480000_d1 h_S_)))
      (Host.gather gather_S30000x32_S480000x1_S480000x32_1_0_n_n_0_1_132 h (val_main_v71 (F := F) ei)))

/-- The reference's aggregate is that function of the reference's own normalized rows and hidden features. -/
theorem v77_eq (x0 : (⟨S30000x2, .f32⟩ : BufTy).Contents (Elt F)) (x1 : (⟨S30000x512, .f32⟩ : BufTy).Contents (Elt F))
    (x2 : (⟨S2x480000, .i32⟩ : BufTy).Contents (Elt F)) (x3 : (⟨S32x2, .f32⟩ : BufTy).Contents (Elt F))
    (x4 x5 x6 : (⟨S32, .f32⟩ : BufTy).Contents (Elt F)) (x7 : (⟨S_, .f32⟩ : BufTy).Contents (Elt F))
    (x8 : (⟨S32x32, .f32⟩ : BufTy).Contents (Elt F)) (x9 : (⟨S32, .f32⟩ : BufTy).Contents (Elt F)) :
    val_main_v77 (F := F) x0 x1 x2 x3 x4 x5 x6 x7 x8 x9
      = aggOf (val_main_v44 (F := F) x1) (val_main_v39 (F := F) x0 x3 x4 x5 x6 x7 x8 x9) x2 := by
  unfold val_main_v77 val_main_v74 val_main_v73 val_main_v72 val_main_v65 val_main_v64 val_main_v63 val_main_v62 val_main_v55 aggOf
  rfl

end Cert.Bridge.Edge

end
-- ==== Proof.LibRowSum.lean ====
/-
  A sum along the last axis of a matrix, read at a row.

  For x of shape [a, b], the kernel's lane reduction with neutral accumulator and the host's reduce with initial value
  init, both along axis 1, read at row p are the finite sum over k : Fin b of x (p, k) (the host's with init added in
  front): the source index over row p with coordinate k on the dropped axis is (p, k).
-/
import Idealize.ShloMosaic.PureOps.Ideal.Laws
import Idealize.ShloMosaic.Lib.ValueIdx

noncomputable section

namespace Cert.LibRowSum

open Idealize.ShloMosaic Idealize.ShloMosaic.ValueIdx

/-- Over row p of an [a, b] matrix, the source index with coordinate k on axis 1 is (p, k). -/
theorem lift_row {a b : ℕ} (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- The kernel's lane sum of an [a, b] matrix at row p is the sum of the row's entries. -/
theorem multiReduction_add_row {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The host's sum of an [a, b] matrix along axis 1 at row p is the initial value plus the sum of the row's entries. -/
theorem hostReduceAdd_row {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_row h p k)))

end Cert.LibRowSum

end
-- ==== Proof.LibUnitAxis.lean ====
/-
  A vector laid out as a column: a shape cast `[a] → [a, 1]` read at `(i, u)` is the vector's entry `i`,
  whatever the unit coordinate `u` (both sit at row-major position `i`).
-/
import Idealize.ShloMosaic.Lib.ValueIdx
import Idealize.ShloMosaic.Lib.Pipeline.Value

namespace Cert.Lib.UnitAxis

open Idealize.ShloMosaic Idealize.ShloMosaic.ValueIdx

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib.UnitAxis
-- ==== Proof.LibBcastCol.lean ====
/-
  A column spread along the rows: an array `[a, 1]` broadcast to `[a, b]` reads, at `(p, q)`, the column's entry `p`,
  whatever `q` is — the broadcast repeats the column's one entry per row along the second axis (and when `a = 1` the
  first axis is a unit axis too, where the only coordinate is `0`).
-/
import Idealize.ShloMosaic.Lib.Pipeline.Value
import Idealize.ShloMosaic.Lib.ValueIdx

namespace Cert.LibBcastCol

open Idealize.ShloMosaic Idealize.ShloMosaic.ValueIdx

/-- A column `[a, 1]` broadcast to `[a, b]` reads, at `(p, q)`, the column's entry `p`. -/
theorem bcastCol {α : Type} {a b : ℕ} (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun c => by
    match c with
    | ⟨0, _⟩ =>
      show p.val = if a = 1 then 0 else p.val
      split
      · omega
      · rfl
    | ⟨1, _⟩ => rfl

end Cert.LibBcastCol
-- ==== Proof.BodyNorm.lean ====
/-
  The second kernel region against the reference's row normalization.

  The region walks the 30000 rows in ten blocks of 3000 whole rows. Each entry is scaled by the reciprocal of its own
  row's Euclidean norm, bounded below by a small constant; a row lies in one block, so the array the ten blocks leave
  is the row-normalized array. The reference divides by the bounded norm where the region multiplies by its
  reciprocal; the bound is positive, so the two agree on every extended real.
-/
import proofs.«133878_j20023137534015_1_alg».proof.Proof.Gen.KernelIdeal.Frame
import proofs.«133878_j20023137534015_1_alg».proof.Proof.Gen.ReferenceIdeal.Read
import proofs.«133878_j20023137534015_1_alg».proof.Proof.LibRowSum
import proofs.«133878_j20023137534015_1_alg».proof.Proof.LibUnitAxis
import proofs.«133878_j20023137534015_1_alg».proof.Proof.LibBcastCol
import Idealize.ShloMosaic.Lib.ValueIdx
import Idealize.ShloMosaic.Lib.Pipeline.Value
import Idealize.ShloMosaic.Lib.IdealHost
import Idealize.ShloMosaic.PureOps.Ideal.Laws

noncomputable section

namespace Cert.Bridge.Norm

open Cert.KernelIdeal Cert.KernelIdeal.Gen
open Idealize.ShloMosaic Idealize.ShloMosaic.TcCoe Idealize.ShloMosaic.ValueIdx Idealize.SL.Sem
open Idealize.ShloMosaic.Pipeline (Dat)

/-! ## One block: the body's result at an entry -/

/-- The block offsets of a whole-buffer access are all zero. -/
theorem zero_offsets : (![0, 0] : Fin 2 → Nat) = fun _ => 0 := funext fun a => by fin_cases a <;> rfl

/-- Entry (p, q) of what one block's body leaves: the block's entry times the reciprocal of the bounded Euclidean
    norm of the block's row p. -/
theorem block_entry (x0 : Vec Ideal S3000x512 .f32) (p : Fin 3000) (q : Fin 512) :
    out1_1 (F := Ideal) x0 (ix2 p q)
      = x0 (ix2 p q) * Ideal.div (Ideal.ofBits .f32 0x3F800000#32)
          (max (Ideal.sqrt (∑ k : Fin 512, x0 (ix2 p k) * x0 (ix2 p k))) (Ideal.ofBits .f32 0x322BCC77#32)) := by
  unfold out1_1
  rw [View.canon_unit_zero zero_offsets]
  simp only [View.ld_unit_zero (S := S3000x512) zero_offsets]
  unfold k1_pay1
  refine (mulf_apply _ _ _).trans ?_
  refine congrArg (x0 (ix2 p q) * ·) ?_
  refine (Cert.LibBcastCol.bcastCol _ broadcasts_S3000x1_S3000x512 p q).trans ?_
  refine (divf_apply _ _ _).trans ?_
  refine congrArg (Ideal.div (Ideal.ofBits .f32 0x3F800000#32)) ?_
  refine (maximumf_apply _ _ _).trans ?_
  refine congrArg (max · (Ideal.ofBits .f32 0x322BCC77#32)) ?_
  show Ideal.sqrt (shapeCast S3000x1 _ shapeCasts_S3000_S3000x1 (ix2 p 0)) = _
  refine congrArg Ideal.sqrt ?_
  refine (Cert.Lib.UnitAxis.shapeCast_a_a1_apply _ shapeCasts_S3000_S3000x1 p 0).trans ?_
  refine (Cert.LibRowSum.multiReduction_add_row _ _ reduces_S3000x512_S3000 _ _ p).trans ?_
  rfl

/-! ## The whole array, and the reference's quotient -/

/-- The array whose entry (r, q) is the argument's entry times the reciprocal of the bounded Euclidean norm of the
    argument's row r. -/
def rowNormalized (A : S30000x512.Idx → EReal) : S30000x512.Idx → EReal := fun i =>
  A i * Ideal.div (Ideal.ofBits .f32 0x3F800000#32)
    (max (Ideal.sqrt (∑ k : Fin 512, A (ix2 (i 0) k) * A (ix2 (i 0) k))) (Ideal.ofBits .f32 0x322BCC77#32))

/-- The lower bound of the norm denotes a positive extended real. -/
theorem bound_pos : (0 : EReal) < Ideal.ofBits .f32 0x322BCC77#32 := by
  simp [Ideal.ofBits, Ideal.ieee, -EReal.coe_mul]

/-- Off zero, multiplying by the reciprocal is dividing: x · (1 / y) = x · (1 · y⁻¹) = x · y⁻¹ = x / y. -/
theorem mul_recip_eq_div (x y : EReal) (hy : y ≠ 0) : x * Ideal.div 1 y = Ideal.div x y := by
  unfold Ideal.div
  rw [if_neg hy, if_neg hy, one_mul]

/-- The row-normalized array is the reference's quotient by the bounded row norms. -/
theorem rowNormalized_eq_ref (A : S30000x512.Idx → EReal) :
    rowNormalized A = Cert.ReferenceIdeal.Read.val_main_v44 (F := Ideal) A := by
  funext i
  obtain ⟨r, q, rfl⟩ : ∃ (r : Fin 30000) (q : Fin 512), i = ix2 r q := ⟨i 0, i 1, eq_ix2 i⟩
  rw [Cert.ReferenceIdeal.Read.val_main_v44_apply, Cert.ReferenceIdeal.Read.val_main_v43_apply,
    Cert.ReferenceIdeal.Read.val_main_v42_apply, Cert.ReferenceIdeal.Read.val_main_v40_apply,
    Cert.ReferenceIdeal.Read.val_main_call1_v2_apply, Cert.ReferenceIdeal.Read.val_main_call1_v1_apply,
    Cert.ReferenceIdeal.Read.val_main_v41_apply, Cert.ReferenceIdeal.Read.val_main_cst_5_apply,
    Cert.ReferenceIdeal.Read.val_main_call1_cst_apply]
  have hidx : ∀ k : Fin 512, Cert.ReferenceIdeal.Read.idx_main_call1_v1
      (Cert.ReferenceIdeal.Read.idx_main_call1_v2 (Cert.ReferenceIdeal.Read.idx_main_v43 (ix2 r q))) k = ix2 r k :=
    fun k => funext fun a => Fin.ext (by match a with | ⟨0, _⟩ => rfl | ⟨1, _⟩ => rfl)
  simp only [hidx, Cert.ReferenceIdeal.Read.val_main_call1_v0_apply, Ideal.hostDivf_def, Ideal.maximumf_def,
    Ideal.hostUnary_sqrt_def, Ideal.ofBits_def, Ideal.mulf_def, Ideal.ofBits_zero_f32, zero_add]
  unfold rowNormalized
  rw [Ideal.ofBits_one_f32]
  exact mul_recip_eq_div _ _ (ne_of_gt (lt_max_of_lt_right bound_pos))

/-! ## From the ten blocks to the array -/

section Blocks

/-- The block index maps over the ten points: the input block and the output block of a point have the same
    row-block index, and both have column-block index 0. -/
theorem block_indices : ∀ t : Fin cfg1.N, win1_0.index t (0 : Fin 2) = win1_1.index t (0 : Fin 2)
    ∧ win1_0.index t (1 : Fin 2) = 0
    ∧ win1_1.index t (1 : Fin 2) = 0 :=
  (by decide +kernel : ∀ t : Fin grid1.N, _)

/-- Every row-block index below ten is some point's. -/
theorem block_index_onto : ∀ b : Fin 10, ∃ t : Fin cfg1.N, win1_1.index t = ![b.val, 0] :=
  (by decide +kernel : ∀ b : Fin 10, ∃ t : Fin grid1.N, win1_1.index t = ![b.val, 0])

variable (V : (c : Dev nD) → (b : Ref sig .tc) → Buf (Elt Ideal) ((c : Thread nD τ).loc b))

/-- Entry y of what point t's body leaves is the row-normalized array's entry under y in point t's output block:
    the input block and the output block sit at the same rows, and the row of the input block that the norm runs
    over is a whole row of the array. -/
theorem point_entry (c : Dev nD) (t : Fin cfg1.N) (y : S3000x512.Idx) :
    out1_1 (F := Ideal) (iblk1 V c 0 t) y
      = rowNormalized (V c (Pipeline.arrRef spec1 0)) (((cfg1.win 1).blk t).view.emb y) := by
  obtain ⟨e0, e1, e2⟩ := block_indices t
  obtain ⟨p, q, rfl⟩ : ∃ (p : Fin 3000) (q : Fin 512), y = ix2 p q := ⟨y 0, y 1, eq_ix2 y⟩
  refine (block_entry (iblk1 V c 0 t) p q).trans ?_
  have hrow : ∀ k : Fin 512, iblk1 V c 0 t (ix2 p k)
      = V c (Pipeline.arrRef spec1 0) (ix2 ((((cfg1.win 1).blk t).view.emb (ix2 p q)) 0) k) := by
    intro k
    show V c (Pipeline.arrRef spec1 0) (((cfg1.win 0).blk t).view.emb (ix2 p k)) = _
    refine congrArg (V c (Pipeline.arrRef spec1 0)) (funext fun a => Fin.ext ?_)
    match a with
    | ⟨0, _⟩ =>
      show win1_0.index t (0 : Fin 2) * 3000 + 1 * p.val = win1_1.index t (0 : Fin 2) * 3000 + 1 * p.val
      omega
    | ⟨1, _⟩ =>
      show win1_0.index t (1 : Fin 2) * 512 + 1 * k.val = k.val
      omega
  have hent : iblk1 V c 0 t (ix2 p q)
      = V c (Pipeline.arrRef spec1 0) (((cfg1.win 1).blk t).view.emb (ix2 p q)) := by
    show V c (Pipeline.arrRef spec1 0) (((cfg1.win 0).blk t).view.emb (ix2 p q)) = _
    refine congrArg (V c (Pipeline.arrRef spec1 0)) (funext fun a => Fin.ext ?_)
    match a with
    | ⟨0, _⟩ =>
      show win1_0.index t (0 : Fin 2) * 3000 + 1 * p.val = win1_1.index t (0 : Fin 2) * 3000 + 1 * p.val
      omega
    | ⟨1, _⟩ =>
      show win1_0.index t (1 : Fin 2) * 512 + 1 * q.val = win1_1.index t (1 : Fin 2) * 512 + 1 * q.val
      omega
  unfold rowNormalized
  rw [hent]
  simp only [hrow]

/-- What point t writes back is block t of the row-normalized array of the region's input. -/
theorem flushed_eq (c : Dev nD) (t : Fin cfg1.N) :
    (dat1 (F := Ideal) V c).flushed 1 t
      = ((cfg1.win 1).blk t).view.read (Elt Ideal) (rowNormalized (V c (Pipeline.arrRef spec1 0))) := by
  show (cfg1.win 1).cut (grid1.coords t) ((dat1 (F := Ideal) V c).after 1 t) = _
  rw [after1_1]
  funext j
  exact point_entry V c t j

/-- An index of the array is in point t's output block iff each coordinate is in the block's range on its axis. -/
theorem mem_block (t : Fin cfg1.N) (i : S30000x512.Idx) :
    i ∈ ((cfg1.win 1).blk t).view.set ↔ ∀ a : Fin 2, win1_1.index t a * S3000x512.size a ≤ (i a).val
      ∧ (i a).val < win1_1.index t a * S3000x512.size a + S3000x512.size a := by
  show i ∈ ((View.whole main_v8).slice (win1_1.rect t)).set ↔ _
  rw [View.set_slice_whole, Rect.mem_set_unit]
  exact Iff.rfl

/-- The ten output blocks cover the array: row r lies in the block of the point whose row-block index is r / 3000. -/
theorem covered (i : S30000x512.Idx) :
    ∃ t : Fin cfg1.N, (cfg1.win 1).flush t = true ∧ i ∈ ((cfg1.win 1).blk t).view.set := by
  have hi0 : (i 0).val < 30000 := (i 0).isLt
  have hi1 : (i 1).val < 512 := (i 1).isLt
  obtain ⟨t, ht⟩ := block_index_onto ⟨(i 0).val / 3000, by omega⟩
  have q0 : win1_1.index t (0 : Fin 2) = (i 0).val / 3000 := congrFun ht 0
  have q1 : win1_1.index t (1 : Fin 2) = 0 := congrFun ht 1
  refine ⟨t, flush1_1 t, ?_⟩
  rw [mem_block]
  intro a
  match a with
  | ⟨0, _⟩ =>
    show win1_1.index t (0 : Fin 2) * 3000 ≤ (i 0).val ∧ (i 0).val < win1_1.index t (0 : Fin 2) * 3000 + 3000
    omega
  | ⟨1, _⟩ =>
    show win1_1.index t (1 : Fin 2) * 512 ≤ (i 1).val ∧ (i 1).val < win1_1.index t (1 : Fin 2) * 512 + 512
    omega

/-- After the ten points the output array is the row-normalized array of the region's input. -/
theorem norm_array (c : Dev nD) :
    (dat1 (F := Ideal) V c).arrAt 1 cfg1.N = rowNormalized (V c (Pipeline.arrRef spec1 0)) :=
  (dat1 (F := Ideal) V c).arrAt_eq_of_cover 1 (rowNormalized (V c (Pipeline.arrRef spec1 0)))
    (fun t _ => flushed_eq V c t) covered

end Blocks

/-- After the region's ten points the output array is the reference's normalized array of the region's input,
    whatever the buffer contents `V` the region is entered with. -/
theorem norm_final (V : (c : Dev nD) → (b : Ref sig .tc) → Buf (Elt Ideal) ((c : Thread nD τ).loc b)) (c : Dev nD) :
    (dat1 (F := Ideal) V c).arrAt 1 cfg1.N
      = Cert.ReferenceIdeal.Read.val_main_v44 (F := Ideal) (V c (Pipeline.arrRef spec1 0)) := by
  exact (norm_array V c).trans (rowNormalized_eq_ref _)

end Cert.Bridge.Norm

end
-- ==== Proof.Finals.lean ====
/-
  The two one-point regions' arrays.

  The first and the third kernel regions have a grid of one point, and at that point every window's block is the
  window's whole array. So the one point reads the arrays as the region finds them, and the array it writes back
  covers its output array: the output array ends as the region's body of the arrays it is entered with.
-/
import proofs.«133878_j20023137534015_1_alg».proof.Proof.Gen.KernelIdeal.Frame
import Idealize.ShloMosaic.Lib.ValueIdx
import Idealize.ShloMosaic.Lib.Pipeline.Value

noncomputable section

namespace Cert.Bridge.Finals

open Cert.KernelIdeal Cert.KernelIdeal.Gen
open Idealize.ShloMosaic Idealize.ShloMosaic.TcCoe Idealize.ShloMosaic.ValueIdx Idealize.SL.Sem
open Idealize.ShloMosaic.Pipeline (Dat)

/-! ## The first region -/

/-- The first region's block index maps send its one point to block (0, 0), for every window: decided over the grid. -/
theorem idx_mlp : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Window 0 of the first region: its block at the one point is its whole array (block index zero, block shape the array's). -/
theorem blk_mlp_0 (V : (c : Dev nD) → (b : Ref sig .tc) → Buf (Elt Ideal) ((c : Thread nD τ).loc b)) (c : Dev nD)
    (t : Fin cfg0.N) : iblk0 (F := Ideal) V c 0 t = V c (Pipeline.arrRef spec0 0) := by
  funext y
  show V c (Pipeline.arrRef spec0 0) (((cfg0.win 0).blk t).view.emb y) = V c (Pipeline.arrRef spec0 0) y
  refine congrArg (V c (Pipeline.arrRef spec0 0)) ?_
  funext a; apply Fin.ext
  obtain ⟨e0, e1, -⟩ := idx_mlp t
  match a with
  | ⟨0, _⟩ => show win0_0.index t (0 : Fin 2) * 2 + 1 * (y 0).val = (y 0).val; omega
  | ⟨1, _⟩ => show win0_0.index t (1 : Fin 2) * 30000 + 1 * (y 1).val = (y 1).val; omega

/-- Window 1 of the first region: its block at the one point is its whole array (block index zero, block shape the array's). -/
theorem blk_mlp_1 (V : (c : Dev nD) → (b : Ref sig .tc) → Buf (Elt Ideal) ((c : Thread nD τ).loc b)) (c : Dev nD)
    (t : Fin cfg0.N) : iblk0 (F := Ideal) V c 1 t = V c (Pipeline.arrRef spec0 1) := by
  funext y
  show V c (Pipeline.arrRef spec0 1) (((cfg0.win 1).blk t).view.emb y) = V c (Pipeline.arrRef spec0 1) y
  refine congrArg (V c (Pipeline.arrRef spec0 1)) ?_
  funext a; apply Fin.ext
  obtain ⟨-, -, e0, e1, -⟩ := idx_mlp t
  match a with
  | ⟨0, _⟩ => show win0_1.index t (0 : Fin 2) * 32 + 1 * (y 0).val = (y 0).val; omega
  | ⟨1, _⟩ => show win0_1.index t (1 : Fin 2) * 2 + 1 * (y 1).val = (y 1).val; omega

/-- Window 2 of the first region: its block at the one point is its whole array (block index zero, block shape the array's). -/
theorem blk_mlp_2 (V : (c : Dev nD) → (b : Ref sig .tc) → Buf (Elt Ideal) ((c : Thread nD τ).loc b)) (c : Dev nD)
    (t : Fin cfg0.N) : iblk0 (F := Ideal) V c 2 t = V c (Pipeline.arrRef spec0 2) := by
  funext y
  show V c (Pipeline.arrRef spec0 2) (((cfg0.win 2).blk t).view.emb y) = V c (Pipeline.arrRef spec0 2) y
  refine congrArg (V c (Pipeline.arrRef spec0 2)) ?_
  funext a; apply Fin.ext
  obtain ⟨-, -, -, -, e0, e1, -⟩ := idx_mlp t
  match a with
  | ⟨0, _⟩ => show win0_2.index t (0 : Fin 2) * 32 + 1 * (y 0).val = (y 0).val; omega
  | ⟨1, _⟩ => show win0_2.index t (1 : Fin 2) * 1 + 1 * (y 1).val = (y 1).val; omega

/-- Window 3 of the first region: its block at the one point is its whole array (block index zero, block shape the array's). -/
theorem blk_mlp_3 (V : (c : Dev nD) → (b : Ref sig .tc) → Buf (Elt Ideal) ((c : Thread nD τ).loc b)) (c : Dev nD)
    (t : Fin cfg0.N) : iblk0 (F := Ideal) V c 3 t = V c (Pipeline.arrRef spec0 3) := by
  funext y
  show V c (Pipeline.arrRef spec0 3) (((cfg0.win 3).blk t).view.emb y) = V c (Pipeline.arrRef spec0 3) y
  refine congrArg (V c (Pipeline.arrRef spec0 3)) ?_
  funext a; apply Fin.ext
  obtain ⟨-, -, -, -, -, -, e0, e1, -⟩ := idx_mlp t
  match a with
  | ⟨0, _⟩ => show win0_3.index t (0 : Fin 2) * 32 + 1 * (y 0).val = (y 0).val; omega
  | ⟨1, _⟩ => show win0_3.index t (1 : Fin 2) * 1 + 1 * (y 1).val = (y 1).val; omega

/-- Window 4 of the first region: its block at the one point is its whole array (block index zero, block shape the array's). -/
theorem blk_mlp_4 (V : (c : Dev nD) → (b : Ref sig .tc) → Buf (Elt Ideal) ((c : Thread nD τ).loc b)) (c : Dev nD)
    (t : Fin cfg0.N) : iblk0 (F := Ideal) V c 4 t = V c (Pipeline.arrRef spec0 4) := by
  funext y
  show V c (Pipeline.arrRef spec0 4) (((cfg0.win 4).blk t).view.emb y) = V c (Pipeline.arrRef spec0 4) y
  refine congrArg (V c (Pipeline.arrRef spec0 4)) ?_
  funext a; apply Fin.ext
  obtain ⟨-, -, -, -, -, -, -, -, e0, e1, -⟩ := idx_mlp t
  match a with
  | ⟨0, _⟩ => show win0_4.index t (0 : Fin 2) * 32 + 1 * (y 0).val = (y 0).val; omega
  | ⟨1, _⟩ => show win0_4.index t (1 : Fin 2) * 1 + 1 * (y 1).val = (y 1).val; omega

/-- Window 5 of the first region: its block at the one point is its whole array (block index zero, block shape the array's). -/
theorem blk_mlp_5 (V : (c : Dev nD) → (b : Ref sig .tc) → Buf (Elt Ideal) ((c : Thread nD τ).loc b)) (c : Dev nD)
    (t : Fin cfg0.N) : iblk0 (F := Ideal) V c 5 t = V c (Pipeline.arrRef spec0 5) := by
  funext y
  show V c (Pipeline.arrRef spec0 5) (((cfg0.win 5).blk t).view.emb y) = V c (Pipeline.arrRef spec0 5) y
  refine congrArg (V c (Pipeline.arrRef spec0 5)) ?_
  funext a; apply Fin.ext
  obtain ⟨-, -, -, -, -, -, -, -, -, -, e0, e1, -⟩ := idx_mlp t
  match a with
  | ⟨0, _⟩ => show win0_5.index t (0 : Fin 2) * 1 + 1 * (y 0).val = (y 0).val; omega
  | ⟨1, _⟩ => show win0_5.index t (1 : Fin 2) * 1 + 1 * (y 1).val = (y 1).val; omega

/-- Window 6 of the first region: its block at the one point is its whole array (block index zero, block shape the array's). -/
theorem blk_mlp_6 (V : (c : Dev nD) → (b : Ref sig .tc) → Buf (Elt Ideal) ((c : Thread nD τ).loc b)) (c : Dev nD)
    (t : Fin cfg0.N) : iblk0 (F := Ideal) V c 6 t = V c (Pipeline.arrRef spec0 6) := by
  funext y
  show V c (Pipeline.arrRef spec0 6) (((cfg0.win 6).blk t).view.emb y) = V c (Pipeline.arrRef spec0 6) y
  refine congrArg (V c (Pipeline.arrRef spec0 6)) ?_
  funext a; apply Fin.ext
  obtain ⟨-, -, -, -, -, -, -, -, -, -, -, -, e0, e1, -⟩ := idx_mlp t
  match a with
  | ⟨0, _⟩ => show win0_6.index t (0 : Fin 2) * 32 + 1 * (y 0).val = (y 0).val; omega
  | ⟨1, _⟩ => show win0_6.index t (1 : Fin 2) * 32 + 1 * (y 1).val = (y 1).val; omega

/-- Window 7 of the first region: its block at the one point is its whole array (block index zero, block shape the array's). -/
theorem blk_mlp_7 (V : (c : Dev nD) → (b : Ref sig .tc) → Buf (Elt Ideal) ((c : Thread nD τ).loc b)) (c : Dev nD)
    (t : Fin cfg0.N) : iblk0 (F := Ideal) V c 7 t = V c (Pipeline.arrRef spec0 7) := by
  funext y
  show V c (Pipeline.arrRef spec0 7) (((cfg0.win 7).blk t).view.emb y) = V c (Pipeline.arrRef spec0 7) y
  refine congrArg (V c (Pipeline.arrRef spec0 7)) ?_
  funext a; apply Fin.ext
  obtain ⟨-, -, -, -, -, -, -, -, -, -, -, -, -, -, e0, e1, -⟩ := idx_mlp t
  match a with
  | ⟨0, _⟩ => show win0_7.index t (0 : Fin 2) * 32 + 1 * (y 0).val = (y 0).val; omega
  | ⟨1, _⟩ => show win0_7.index t (1 : Fin 2) * 1 + 1 * (y 1).val = (y 1).val; omega

/-- An array index is in the output window's block at the one point: the block is the whole array. -/
theorem mem_blk_mlp (t : Fin cfg0.N) (i : S32x30000.Idx) :
    i ∈ ((cfg0.win 8).blk t).view.set ↔ ∀ a : Fin 2, win0_8.index t a * S32x30000.size a ≤ (i a).val ∧ (i a).val < win0_8.index t a * S32x30000.size a + S32x30000.size a := by
  show i ∈ ((View.whole main_v6).slice (win0_8.rect t)).set ↔ _
  rw [View.set_slice_whole, Rect.mem_set_unit]
  exact Iff.rfl

/-- The first region's one point reads and writes whole arrays: its output array is its body of the arrays it is
    entered with. -/
theorem mlp_final (V : (c : Dev nD) → (b : Ref sig .tc) → Buf (Elt Ideal) ((c : Thread nD τ).loc b)) (c : Dev nD) :
    (dat0 (F := Ideal) V c).arrAt 8 cfg0.N
      = out0_8 (F := Ideal) (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5))
          (V c (Pipeline.arrRef spec0 6)) (V c (Pipeline.arrRef spec0 7)) := by
  refine (dat0 (F := Ideal) V c).arrAt_eq_of_cover 8 _ (fun t _ => ?_) (fun i => ⟨t0_0, flush0_8 t0_0, ?_⟩)
  · show (cfg0.win 8).cut (grid0.coords t) ((dat0 (F := Ideal) V c).after 8 t) = _
    rw [after0_8, blk_mlp_0, blk_mlp_1, blk_mlp_2, blk_mlp_3, blk_mlp_4, blk_mlp_5, blk_mlp_6, blk_mlp_7]
    generalize out0_8 (F := Ideal) (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5))
          (V c (Pipeline.arrRef spec0 6)) (V c (Pipeline.arrRef spec0 7)) = G
    funext y
    show G y = G (((cfg0.win 8).blk t).view.emb y)
    refine congrArg G ?_
    funext a; apply Fin.ext
    obtain ⟨-, -, -, -, -, -, -, -, -, -, -, -, -, -, -, -, e0, e1⟩ := idx_mlp t
    match a with
    | ⟨0, _⟩ => show (y 0).val = win0_8.index t (0 : Fin 2) * 32 + 1 * (y 0).val; omega
    | ⟨1, _⟩ => show (y 1).val = win0_8.index t (1 : Fin 2) * 30000 + 1 * (y 1).val; omega
  · rw [mem_blk_mlp]
    obtain ⟨-, -, -, -, -, -, -, -, -, -, -, -, -, -, -, -, e0, e1⟩ := idx_mlp t0_0
    intro a
    match a with
    | ⟨0, _⟩ => show win0_8.index t0_0 (0 : Fin 2) * 32 ≤ (i 0).val ∧ (i 0).val < win0_8.index t0_0 (0 : Fin 2) * 32 + 32; have h : (i 0).val < 32 := (i 0).isLt; omega
    | ⟨1, _⟩ => show win0_8.index t0_0 (1 : Fin 2) * 30000 ≤ (i 1).val ∧ (i 1).val < win0_8.index t0_0 (1 : Fin 2) * 30000 + 30000; have h : (i 1).val < 30000 := (i 1).isLt; omega

/-! ## The third region -/

/-- The third region's block index maps send its one point to block (0, 0), for every window: decided over the grid. -/
theorem idx_conv : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

/-- Window 0 of the third region: its block at the one point is its whole array (block index zero, block shape the array's). -/
theorem blk_conv_0 (V : (c : Dev nD) → (b : Ref sig .tc) → Buf (Elt Ideal) ((c : Thread nD τ).loc b)) (c : Dev nD)
    (t : Fin cfg2.N) : iblk2 (F := Ideal) V c 0 t = V c (Pipeline.arrRef spec2 0) := by
  funext y
  show V c (Pipeline.arrRef spec2 0) (((cfg2.win 0).blk t).view.emb y) = V c (Pipeline.arrRef spec2 0) y
  refine congrArg (V c (Pipeline.arrRef spec2 0)) ?_
  funext a; apply Fin.ext
  obtain ⟨e0, e1, -⟩ := idx_conv t
  match a with
  | ⟨0, _⟩ => show win2_0.index t (0 : Fin 2) * 32 + 1 * (y 0).val = (y 0).val; omega
  | ⟨1, _⟩ => show win2_0.index t (1 : Fin 2) * 30000 + 1 * (y 1).val = (y 1).val; omega

/-- Window 1 of the third region: its block at the one point is its whole array (block index zero, block shape the array's). -/
theorem blk_conv_1 (V : (c : Dev nD) → (b : Ref sig .tc) → Buf (Elt Ideal) ((c : Thread nD τ).loc b)) (c : Dev nD)
    (t : Fin cfg2.N) : iblk2 (F := Ideal) V c 1 t = V c (Pipeline.arrRef spec2 1) := by
  funext y
  show V c (Pipeline.arrRef spec2 1) (((cfg2.win 1).blk t).view.emb y) = V c (Pipeline.arrRef spec2 1) y
  refine congrArg (V c (Pipeline.arrRef spec2 1)) ?_
  funext a; apply Fin.ext
  obtain ⟨-, -, e0, e1, -⟩ := idx_conv t
  match a with
  | ⟨0, _⟩ => show win2_1.index t (0 : Fin 2) * 1 + 1 * (y 0).val = (y 0).val; omega
  | ⟨1, _⟩ => show win2_1.index t (1 : Fin 2) * 30000 + 1 * (y 1).val = (y 1).val; omega

/-- Window 2 of the third region: its block at the one point is its whole array (block index zero, block shape the array's). -/
theorem blk_conv_2 (V : (c : Dev nD) → (b : Ref sig .tc) → Buf (Elt Ideal) ((c : Thread nD τ).loc b)) (c : Dev nD)
    (t : Fin cfg2.N) : iblk2 (F := Ideal) V c 2 t = V c (Pipeline.arrRef spec2 2) := by
  funext y
  show V c (Pipeline.arrRef spec2 2) (((cfg2.win 2).blk t).view.emb y) = V c (Pipeline.arrRef spec2 2) y
  refine congrArg (V c (Pipeline.arrRef spec2 2)) ?_
  funext a; apply Fin.ext
  obtain ⟨-, -, -, -, e0, e1, -⟩ := idx_conv t
  match a with
  | ⟨0, _⟩ => show win2_2.index t (0 : Fin 2) * 32 + 1 * (y 0).val = (y 0).val; omega
  | ⟨1, _⟩ => show win2_2.index t (1 : Fin 2) * 32 + 1 * (y 1).val = (y 1).val; omega

/-- Window 3 of the third region: its block at the one point is its whole array (block index zero, block shape the array's). -/
theorem blk_conv_3 (V : (c : Dev nD) → (b : Ref sig .tc) → Buf (Elt Ideal) ((c : Thread nD τ).loc b)) (c : Dev nD)
    (t : Fin cfg2.N) : iblk2 (F := Ideal) V c 3 t = V c (Pipeline.arrRef spec2 3) := by
  funext y
  show V c (Pipeline.arrRef spec2 3) (((cfg2.win 3).blk t).view.emb y) = V c (Pipeline.arrRef spec2 3) y
  refine congrArg (V c (Pipeline.arrRef spec2 3)) ?_
  funext a; apply Fin.ext
  obtain ⟨-, -, -, -, -, -, e0, e1, -⟩ := idx_conv t
  match a with
  | ⟨0, _⟩ => show win2_3.index t (0 : Fin 2) * 32 + 1 * (y 0).val = (y 0).val; omega
  | ⟨1, _⟩ => show win2_3.index t (1 : Fin 2) * 1 + 1 * (y 1).val = (y 1).val; omega

/-- Window 4 of the third region: its block at the one point is its whole array (block index zero, block shape the array's). -/
theorem blk_conv_4 (V : (c : Dev nD) → (b : Ref sig .tc) → Buf (Elt Ideal) ((c : Thread nD τ).loc b)) (c : Dev nD)
    (t : Fin cfg2.N) : iblk2 (F := Ideal) V c 4 t = V c (Pipeline.arrRef spec2 4) := by
  funext y
  show V c (Pipeline.arrRef spec2 4) (((cfg2.win 4).blk t).view.emb y) = V c (Pipeline.arrRef spec2 4) y
  refine congrArg (V c (Pipeline.arrRef spec2 4)) ?_
  funext a; apply Fin.ext
  obtain ⟨-, -, -, -, -, -, -, -, e0, e1, -⟩ := idx_conv t
  match a with
  | ⟨0, _⟩ => show win2_4.index t (0 : Fin 2) * 1 + 1 * (y 0).val = (y 0).val; omega
  | ⟨1, _⟩ => show win2_4.index t (1 : Fin 2) * 32 + 1 * (y 1).val = (y 1).val; omega

/-- Window 5 of the third region: its block at the one point is its whole array (block index zero, block shape the array's). -/
theorem blk_conv_5 (V : (c : Dev nD) → (b : Ref sig .tc) → Buf (Elt Ideal) ((c : Thread nD τ).loc b)) (c : Dev nD)
    (t : Fin cfg2.N) : iblk2 (F := Ideal) V c 5 t = V c (Pipeline.arrRef spec2 5) := by
  funext y
  show V c (Pipeline.arrRef spec2 5) (((cfg2.win 5).blk t).view.emb y) = V c (Pipeline.arrRef spec2 5) y
  refine congrArg (V c (Pipeline.arrRef spec2 5)) ?_
  funext a; apply Fin.ext
  obtain ⟨-, -, -, -, -, -, -, -, -, -, e0, e1, -⟩ := idx_conv t
  match a with
  | ⟨0, _⟩ => show win2_5.index t (0 : Fin 2) * 1 + 1 * (y 0).val = (y 0).val; omega
  | ⟨1, _⟩ => show win2_5.index t (1 : Fin 2) * 1 + 1 * (y 1).val = (y 1).val; omega

/-- An array index is in the output window's block at the one point: the block is the whole array. -/
theorem mem_blk_conv (t : Fin cfg2.N) (i : S1x30000.Idx) :
    i ∈ ((cfg2.win 6).blk t).view.set ↔ ∀ a : Fin 2, win2_6.index t a * S1x30000.size a ≤ (i a).val ∧ (i a).val < win2_6.index t a * S1x30000.size a + S1x30000.size a := by
  show i ∈ ((View.whole main_v50).slice (win2_6.rect t)).set ↔ _
  rw [View.set_slice_whole, Rect.mem_set_unit]
  exact Iff.rfl

/-- The third region's one point reads and writes whole arrays: its output array is its body of the arrays it is
    entered with. -/
theorem conv_final (V : (c : Dev nD) → (b : Ref sig .tc) → Buf (Elt Ideal) ((c : Thread nD τ).loc b)) (c : Dev nD) :
    (dat2 (F := Ideal) V c).arrAt 6 cfg2.N
      = out2_6 (F := Ideal) (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5)) := by
  refine (dat2 (F := Ideal) V c).arrAt_eq_of_cover 6 _ (fun t _ => ?_) (fun i => ⟨t2_0, flush2_6 t2_0, ?_⟩)
  · show (cfg2.win 6).cut (grid2.coords t) ((dat2 (F := Ideal) V c).after 6 t) = _
    rw [after2_6, blk_conv_0, blk_conv_1, blk_conv_2, blk_conv_3, blk_conv_4, blk_conv_5]
    generalize out2_6 (F := Ideal) (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5)) = G
    funext y
    show G y = G (((cfg2.win 6).blk t).view.emb y)
    refine congrArg G ?_
    funext a; apply Fin.ext
    obtain ⟨-, -, -, -, -, -, -, -, -, -, -, -, e0, e1⟩ := idx_conv t
    match a with
    | ⟨0, _⟩ => show (y 0).val = win2_6.index t (0 : Fin 2) * 1 + 1 * (y 0).val; omega
    | ⟨1, _⟩ => show (y 1).val = win2_6.index t (1 : Fin 2) * 30000 + 1 * (y 1).val; omega
  · rw [mem_blk_conv]
    obtain ⟨-, -, -, -, -, -, -, -, -, -, -, -, e0, e1⟩ := idx_conv t2_0
    intro a
    match a with
    | ⟨0, _⟩ => show win2_6.index t2_0 (0 : Fin 2) * 1 ≤ (i 0).val ∧ (i 0).val < win2_6.index t2_0 (0 : Fin 2) * 1 + 1; have h : (i 0).val < 1 := (i 0).isLt; omega
    | ⟨1, _⟩ => show win2_6.index t2_0 (1 : Fin 2) * 30000 ≤ (i 1).val ∧ (i 1).val < win2_6.index t2_0 (1 : Fin 2) * 30000 + 30000; have h : (i 1).val < 30000 := (i 1).isLt; omega

end Cert.Bridge.Finals

end
-- ==== Proof.KFold.lean ====
/-
  The idealized kernel's result as one function of its arguments.

  The run's last stage of buffer contents is a fold through seven segments. Reading it at the result buffer, from
  the end backwards: the result is the third region's output row recast as a vector; that output is the region's
  body of the arrays it is entered with; those arrays are written by the host stretch before it — the aggregate
  transposed, the degree as a row, two bias vectors recast — from the second region's output (the normalized rows)
  and the first region's output transposed (the hidden features); the first region's body is applied to the
  arguments transposed and recast by the first host stretch. An argument array is written by nothing, so wherever
  it is read it holds its launch contents.
-/
import proofs.«133878_j20023137534015_1_alg».proof.Proof.Gen.KernelIdeal.Frame
import proofs.«133878_j20023137534015_1_alg».proof.Proof.Edge
import proofs.«133878_j20023137534015_1_alg».proof.Proof.BodyNorm
import proofs.«133878_j20023137534015_1_alg».proof.Proof.Finals

set_option maxRecDepth 16384

noncomputable section

namespace Cert.KernelIdeal.KFold

open Cert.KernelIdeal Cert.KernelIdeal.Gen
open Idealize.ShloMosaic Idealize.ShloMosaic.TcCoe Idealize.SL.Sem
open Cert.Bridge.Edge (aggOf)

/-- The kernel program's hidden features, nodes along the rows: the first region's body of the arguments re-laid,
    transposed back. -/
def kH (x0 : Vec Ideal S30000x2 .f32) (x3 : Vec Ideal S32x2 .f32) (x4 x5 x6 : Vec Ideal S32 .f32)
    (x7 : Vec Ideal S_ .f32) (x8 : Vec Ideal S32x32 .f32) (x9 : Vec Ideal S32 .f32) : Vec Ideal S30000x32 .f32 :=
  transpose S30000x32 [1, 0]
    (out0_8 (F := Ideal) (transpose S2x30000 [1, 0] x0 transposes_S30000x2_S2x30000_1_0) x3
      (shapeCast S32x1 x4 shapeCasts_S32_S32x1) (shapeCast S32x1 x5 shapeCasts_S32_S32x1)
      (shapeCast S32x1 x6 shapeCasts_S32_S32x1) (shapeCast S1x1 x7 shapeCasts_S_S1x1) x8
      (shapeCast S32x1 x9 shapeCasts_S32_S32x1))
    transposes_S32x30000_S30000x32_1_0

/-- The kernel program's result: the third region's body of the aggregate transposed, the degree as a row and the
    last layers' parameters, recast as a vector. -/
def kRes (x0 : Vec Ideal S30000x2 .f32) (x1 : Vec Ideal S30000x512 .f32) (x2 : IVec S2x480000 32)
    (x3 : Vec Ideal S32x2 .f32) (x4 x5 x6 : Vec Ideal S32 .f32) (x7 : Vec Ideal S_ .f32) (x8 : Vec Ideal S32x32 .f32)
    (x9 : Vec Ideal S32 .f32) (x10 : Vec Ideal S32x32 .f32) (x11 : Vec Ideal S32 .f32) (x12 : Vec Ideal S1x32 .f32)
    (x13 : Vec Ideal S1 .f32) : Vec Ideal S30000 .f32 :=
  shapeCast S30000
    (out2_6 (F := Ideal)
      (transpose S32x30000 [1, 0]
        (aggOf (F := Ideal) (Cert.ReferenceIdeal.Read.val_main_v44 (F := Ideal) x1) (kH x0 x3 x4 x5 x6 x7 x8 x9) x2)
        transposes_S30000x32_S32x30000_1_0)
      (shapeCast S1x30000 (Cert.ReferenceIdeal.Read.val_main_v81 (F := Ideal) x2) shapeCasts_S30000_S1x30000)
      x10 (shapeCast S32x1 x11 shapeCasts_S32_S32x1) x12 (shapeCast S1x1 x13 shapeCasts_S1_S1x1))
    shapeCasts_S1x30000_S30000

variable (m : (ℓ : Loc nD τ sig) → Buf (Elt Ideal) ℓ) (ρ : Dev nD → PrngReg) (c : Dev nD)

/-! ## The first host stretch: the arguments re-laid -/

theorem V1_v0 : V1 m ρ c main_v0 = transpose S2x30000 [1, 0] (m ((c : Thread nD τ).loc main_arg0)) transposes_S30000x2_S2x30000_1_0 := by
  show StableHlo.after hostOps0 (W0 m ρ c) (Proc.devRef .tc main_v0) = _
  dsimp only [hostOps0]; after_results <;> rfl
theorem V1_v1 : V1 m ρ c main_v1 = shapeCast S32x1 (m ((c : Thread nD τ).loc main_arg4)) shapeCasts_S32_S32x1 := by
  show StableHlo.after hostOps0 (W0 m ρ c) (Proc.devRef .tc main_v1) = _
  dsimp only [hostOps0]; after_results <;> rfl
theorem V1_v2 : V1 m ρ c main_v2 = shapeCast S32x1 (m ((c : Thread nD τ).loc main_arg5)) shapeCasts_S32_S32x1 := by
  show StableHlo.after hostOps0 (W0 m ρ c) (Proc.devRef .tc main_v2) = _
  dsimp only [hostOps0]; after_results <;> rfl
theorem V1_v3 : V1 m ρ c main_v3 = shapeCast S32x1 (m ((c : Thread nD τ).loc main_arg6)) shapeCasts_S32_S32x1 := by
  show StableHlo.after hostOps0 (W0 m ρ c) (Proc.devRef .tc main_v3) = _
  dsimp only [hostOps0]; after_results <;> rfl
theorem V1_v4 : V1 m ρ c main_v4 = shapeCast S1x1 (m ((c : Thread nD τ).loc main_arg7)) shapeCasts_S_S1x1 := by
  show StableHlo.after hostOps0 (W0 m ρ c) (Proc.devRef .tc main_v4) = _
  dsimp only [hostOps0]; after_results <;> rfl
theorem V1_v5 : V1 m ρ c main_v5 = shapeCast S32x1 (m ((c : Thread nD τ).loc main_arg9)) shapeCasts_S32_S32x1 := by
  show StableHlo.after hostOps0 (W0 m ρ c) (Proc.devRef .tc main_v5) = _
  dsimp only [hostOps0]; after_results <;> rfl
/-- The first stretch writes no argument. -/
theorem V1_arg (b : Ref sig .tc) (hb : b = main_arg1 ∨ b = main_arg2 ∨ b = main_arg3 ∨ b = main_arg8 ∨ b = main_arg10
    ∨ b = main_arg11 ∨ b = main_arg12 ∨ b = main_arg13) : V1 m ρ c b = m ((c : Thread nD τ).loc b) := by
  show StableHlo.after hostOps0 (W0 m ρ c) (Proc.devRef .tc b) = _
  rcases hb with rfl | rfl | rfl | rfl | rfl | rfl | rfl | rfl <;> (dsimp only [hostOps0]; after_results <;> rfl)

/-! ## The first region and the stretch after it: the hidden features -/

theorem V2_v6 : V2 m ρ c main_v6 = out0_8 (F := Ideal) (V1 m ρ c main_v0) (V1 m ρ c main_arg3) (V1 m ρ c main_v1)
    (V1 m ρ c main_v2) (V1 m ρ c main_v3) (V1 m ρ c main_v4) (V1 m ρ c main_arg8) (V1 m ρ c main_v5) :=
  (W2_arr m ρ c 8).trans (Cert.Bridge.Finals.mlp_final (V1 m ρ) c)
theorem V2_arg (b : Ref sig .tc) (hb : b = main_arg1 ∨ b = main_arg2 ∨ b = main_arg10 ∨ b = main_arg11 ∨ b = main_arg12
    ∨ b = main_arg13) : V2 m ρ c b = V1 m ρ c b := by
  rcases hb with rfl | rfl | rfl | rfl | rfl | rfl <;> exact W2_of_ne m ρ c _ (by decide)
theorem V3_v7 : V3 m ρ c main_v7 = transpose S30000x32 [1, 0] (V2 m ρ c main_v6) transposes_S32x30000_S30000x32_1_0 := by
  show StableHlo.after hostOps1 (W2 m ρ c) (Proc.devRef .tc main_v7) = _
  dsimp only [hostOps1]; after_results <;> rfl
theorem V3_arg (b : Ref sig .tc) (hb : b = main_arg1 ∨ b = main_arg2 ∨ b = main_arg10 ∨ b = main_arg11 ∨ b = main_arg12
    ∨ b = main_arg13) : V3 m ρ c b = V2 m ρ c b := by
  show StableHlo.after hostOps1 (W2 m ρ c) (Proc.devRef .tc b) = _
  rcases hb with rfl | rfl | rfl | rfl | rfl | rfl <;> (dsimp only [hostOps1]; after_results <;> rfl)

/-! ## The second region: the normalized rows -/

theorem V4_v8 : V4 m ρ c main_v8 = Cert.ReferenceIdeal.Read.val_main_v44 (F := Ideal) (V3 m ρ c main_arg1) :=
  (W4_arr m ρ c 1).trans (Cert.Bridge.Norm.norm_final (V3 m ρ) c)
theorem V4_of (b : Ref sig .tc) (hb : b = main_v7 ∨ b = main_arg2 ∨ b = main_arg10 ∨ b = main_arg11 ∨ b = main_arg12
    ∨ b = main_arg13) : V4 m ρ c b = V3 m ρ c b := by
  rcases hb with rfl | rfl | rfl | rfl | rfl | rfl <;> exact W4_of_ne m ρ c _ (by decide)

/-- An argument the edge stage and the last region read holds its launch contents when the second region is left. -/
theorem V4_arg (b : Ref sig .tc) (hb : b = main_arg2 ∨ b = main_arg10 ∨ b = main_arg11 ∨ b = main_arg12 ∨ b = main_arg13) :
    V4 m ρ c b = m ((c : Thread nD τ).loc b) := by
  rcases hb with rfl | rfl | rfl | rfl | rfl
  · exact (V4_of m ρ c _ (by simp)).trans ((V3_arg m ρ c _ (by simp)).trans ((V2_arg m ρ c _ (by simp)).trans (V1_arg m ρ c _ (by simp))))
  · exact (V4_of m ρ c _ (by simp)).trans ((V3_arg m ρ c _ (by simp)).trans ((V2_arg m ρ c _ (by simp)).trans (V1_arg m ρ c _ (by simp))))
  · exact (V4_of m ρ c _ (by simp)).trans ((V3_arg m ρ c _ (by simp)).trans ((V2_arg m ρ c _ (by simp)).trans (V1_arg m ρ c _ (by simp))))
  · exact (V4_of m ρ c _ (by simp)).trans ((V3_arg m ρ c _ (by simp)).trans ((V2_arg m ρ c _ (by simp)).trans (V1_arg m ρ c _ (by simp))))
  · exact (V4_of m ρ c _ (by simp)).trans ((V3_arg m ρ c _ (by simp)).trans ((V2_arg m ρ c _ (by simp)).trans (V1_arg m ρ c _ (by simp))))

/-- The second region's input holds the launch contents of the visual features. -/
theorem V3_arg1 : V3 m ρ c main_arg1 = m ((c : Thread nD τ).loc main_arg1) :=
  (V3_arg m ρ c _ (by simp)).trans ((V2_arg m ρ c _ (by simp)).trans (V1_arg m ρ c _ (by simp)))

/-! ## The edge stage, the third region and the last recast -/

theorem V5_v46 : V5 m ρ c main_v46 = transpose S32x30000 [1, 0]
    (aggOf (F := Ideal) (V4 m ρ c main_v8) (V4 m ρ c main_v7) (V4 m ρ c main_arg2)) transposes_S30000x32_S32x30000_1_0 := by
  show StableHlo.after hostOps2 (W4 m ρ c) (Proc.devRef .tc main_v46) = _
  dsimp only [hostOps2]; after_results_simp <;> rfl
theorem V5_v47 : V5 m ρ c main_v47 = shapeCast S1x30000
    (Cert.ReferenceIdeal.Read.val_main_v81 (F := Ideal) (V4 m ρ c main_arg2)) shapeCasts_S30000_S1x30000 := by
  show StableHlo.after hostOps2 (W4 m ρ c) (Proc.devRef .tc main_v47) = _
  dsimp only [hostOps2]; after_results_simp <;> rfl
theorem V5_v48 : V5 m ρ c main_v48 = shapeCast S32x1 (V4 m ρ c main_arg11) shapeCasts_S32_S32x1 := by
  show StableHlo.after hostOps2 (W4 m ρ c) (Proc.devRef .tc main_v48) = _
  dsimp only [hostOps2]; after_results_simp <;> rfl
theorem V5_v49 : V5 m ρ c main_v49 = shapeCast S1x1 (V4 m ρ c main_arg13) shapeCasts_S1_S1x1 := by
  show StableHlo.after hostOps2 (W4 m ρ c) (Proc.devRef .tc main_v49) = _
  dsimp only [hostOps2]; after_results_simp <;> rfl
theorem V5_arg10 : V5 m ρ c main_arg10 = V4 m ρ c main_arg10 := by
  show StableHlo.after hostOps2 (W4 m ρ c) (Proc.devRef .tc main_arg10) = _
  dsimp only [hostOps2]; after_results_simp <;> rfl
theorem V5_arg12 : V5 m ρ c main_arg12 = V4 m ρ c main_arg12 := by
  show StableHlo.after hostOps2 (W4 m ρ c) (Proc.devRef .tc main_arg12) = _
  dsimp only [hostOps2]; after_results_simp <;> rfl

theorem V6_v50 : V6 m ρ c main_v50 = out2_6 (F := Ideal) (V5 m ρ c main_v46) (V5 m ρ c main_v47) (V5 m ρ c main_arg10)
    (V5 m ρ c main_v48) (V5 m ρ c main_arg12) (V5 m ρ c main_v49) :=
  (W6_arr m ρ c 6).trans (Cert.Bridge.Finals.conv_final (V5 m ρ) c)

theorem W7_v51 : W7 m ρ c (Proc.devRef .tc main_v51) = shapeCast S30000 (V6 m ρ c main_v50) shapeCasts_S1x30000_S30000 := by
  show StableHlo.after hostOps3 (W6 m ρ c) (Proc.devRef .tc main_v51) = _
  dsimp only [hostOps3]; after_results <;> rfl

/-- The last stage of the fold, read at the result buffer, is the kernel program's result function of the launch
    contents of the fourteen arguments. -/
theorem result_eq : W7 m ρ c (Proc.devRef .tc main_v51)
    = kRes (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5))
        (m ((c : Thread nD τ).loc main_arg6))
        (m ((c : Thread nD τ).loc main_arg7))
        (m ((c : Thread nD τ).loc main_arg8))
        (m ((c : Thread nD τ).loc main_arg9))
        (m ((c : Thread nD τ).loc main_arg10))
        (m ((c : Thread nD τ).loc main_arg11))
        (m ((c : Thread nD τ).loc main_arg12))
        (m ((c : Thread nD τ).loc main_arg13)) := by
  rw [W7_v51, V6_v50, V5_v46, V5_v47, V5_v48, V5_v49, V5_arg10, V5_arg12, V4_v8, V3_arg1,
    V4_of m ρ c main_v7 (by simp), V3_v7, V2_v6, V1_v0, V1_v1, V1_v2, V1_v3, V1_v4, V1_v5,
    V1_arg m ρ c main_arg3 (by simp), V1_arg m ρ c main_arg8 (by simp),
    V4_arg m ρ c main_arg2 (by simp), V4_arg m ρ c main_arg10 (by simp), V4_arg m ρ c main_arg11 (by simp),
    V4_arg m ρ c main_arg12 (by simp), V4_arg m ρ c main_arg13 (by simp)]
  rfl

end Cert.KernelIdeal.KFold

end
-- ==== Proof.LibMatmul.lean ====
/-
  A rank-2 matrix product read at an index, at the exact extended reals: when the dimension numbers contract the
  left operand's column axis with the right operand's row axis and keep the other two axes in order, the product
  accumulated into zeros is, at row `p` and column `q`, the sum over `k` of `lhs (p, k) · rhs (k, q)` — a sum over
  the contracted extent itself, not over the contraction's own index type.
-/
import Idealize.ShloMosaic.PureOps.Ideal.Laws
import Idealize.ShloMosaic.Lib.ValueIdx

noncomputable section

namespace Cert.LibMatmul

open Idealize.ShloMosaic Idealize.ShloMosaic.ValueIdx

/-- A product `[a, K] × [K, b] → [a, b]` into a zero accumulator, at an output index `j`: the four coordinate facts
    say which operand entries the dimension numbers pair at the contraction index (the left one at `(j 0, k)`, the
    right one at `(k, j 1)`); the contraction has one axis, of extent `K`, and the sum is re-indexed along it. -/
theorem matmul_zero_ix2 {a K b : Nat} {φ₁ φ₂ : FTy}
    (d : DotDims ⟨2, ![a, K]⟩ ⟨2, ![K, b]⟩ ⟨2, ![a, b]⟩) (prec : Option ContractPrecision)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : FVec Ideal ⟨2, ![a, K]⟩ φ₁) (rhs : FVec Ideal ⟨2, ![K, b]⟩ φ₂) (j : (⟨2, ![a, b]⟩ : Shape).Idx) :
    FloatOps.matmul d prec lhs rhs (constant ⟨2, ![a, b]⟩ .f32 0x00000000#32) j
      = ∑ k : Fin K, lhs (ix2 (j 0) k) * rhs (ix2 k (j 1)) := by
  rw [Ideal.matmul_constant_zero_apply, ← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun x => Fin.ext (by
    match x with
    | ⟨0, _⟩ => exact hl0 _ _
    | ⟨1, _⟩ => exact (hl1 _ _).trans hk)
  have er : d.rhsIdx j ((contrEquiv1 d K hr hs).symm k) = ix2 k (j 1) := funext fun x => Fin.ext (by
    match x with
    | ⟨0, _⟩ => exact (hr0 _ _).trans hk
    | ⟨1, _⟩ => exact hr1 _ _)
  rw [el, er]
  rfl

end Cert.LibMatmul

end
-- ==== Proof.BodyMlp.lean ====
/-
  The first kernel region against the reference's input layers, entry by entry.

  The region holds the features along the rows: for feature j and node n it forms the affine map of the node's two
  inputs, centres and scales it by the feature's mean and variance over all nodes, applies the one-slope rectifier,
  and maps the 32 rectified features through the second weight matrix. The reference does the same with nodes
  along the rows. Read at (j, n) on one side and (n, j) on the other, the two are one expression of the inputs.
-/
import proofs.«133878_j20023137534015_1_alg».proof.Proof.Gen.KernelIdeal.Frame
import proofs.«133878_j20023137534015_1_alg».proof.Proof.Gen.ReferenceIdeal.Read
import proofs.«133878_j20023137534015_1_alg».proof.Proof.LibMatmul
import proofs.«133878_j20023137534015_1_alg».proof.Proof.LibRowSum
import proofs.«133878_j20023137534015_1_alg».proof.Proof.LibBcastCol
import proofs.«133878_j20023137534015_1_alg».proof.Proof.LibUnitAxis
import Idealize.ShloMosaic.Lib.ValueIdx
import Idealize.ShloMosaic.Lib.Pipeline.Value
import Idealize.ShloMosaic.PureOps.Ideal.Laws

noncomputable section

namespace Cert.Bridge.Mlp

open Idealize.ShloMosaic Idealize.ShloMosaic.ValueIdx

/-! ## The shared mathematics

The hidden layer as plain functions of (feature, node): the affine map of the two inputs, the per-feature mean and
variance over all nodes, the normalised and scaled value, the one-slope rectifier, the second affine map. -/

/-- The per-feature mean over the 30000 nodes. -/
def mean (P : Fin 32 → Fin 30000 → EReal) (j : Fin 32) : EReal :=
  Ideal.div (∑ n : Fin 30000, P j n) (Ideal.ofBits .f32 0x46EA6000#32)

/-- The per-feature variance over the 30000 nodes. -/
def var (P : Fin 32 → Fin 30000 → EReal) (j : Fin 32) : EReal :=
  Ideal.div (∑ n : Fin 30000, (P j n - mean P j) * (P j n - mean P j)) (Ideal.ofBits .f32 0x46EA6000#32)

/-- Centred, scaled by the inverse deviation, then by the feature's gain, plus the feature's offset. -/
def normed (P : Fin 32 → Fin 30000 → EReal) (g be : Fin 32 → EReal) (j : Fin 32) (n : Fin 30000) : EReal :=
  (P j n - mean P j) * Ideal.rsqrt (var P j + Ideal.ofBits .f32 0x3727C5AC#32) * g j + be j

/-- The rectifier with slope a on the negative side. -/
def act (a : EReal) (N : Fin 32 → Fin 30000 → EReal) (j : Fin 32) (n : Fin 30000) : EReal :=
  Scalar.select (Ideal.cmp .oge (N j n) (Ideal.ofBits .f32 0x00000000#32)) (N j n) (a * N j n)

/-- The second affine map, over the 32 rectified features. -/
def outM (W : Fin 32 → Fin 32 → EReal) (A : Fin 32 → Fin 30000 → EReal) (b : Fin 32 → EReal) (j : Fin 32) (n : Fin 30000) : EReal :=
  (∑ k : Fin 32, W j k * A k n) + b j

/-- The affine map of a node's two inputs: feature j of node n. -/
def pre (x0 : Vec Ideal Cert.ReferenceIdeal.S30000x2 .f32) (w1 : Vec Ideal Cert.KernelIdeal.S32x2 .f32)
    (x4 : Vec Ideal Cert.ReferenceIdeal.S32 .f32) (j : Fin 32) (n : Fin 30000) : EReal :=
  (∑ k : Fin 2, w1 (ix2 j k) * x0 (ix2 n k)) + x4 (ix1 j)

section Kernel
open Cert.KernelIdeal Cert.KernelIdeal.Gen

theorem hz2 : (![0, 0] : Fin 2 → Nat) = fun _ => 0 := funext fun a => by fin_cases a <;> rfl

/-- The region's stored value as the payload of its operands. -/
theorem out_eq_payload
    (xT : Vec Ideal S2x30000 .f32) (w1 : Vec Ideal S32x2 .f32)
    (b1c gc bec : Vec Ideal S32x1 .f32) (a11 : Vec Ideal S1x1 .f32)
    (w2 : Vec Ideal S32x32 .f32) (b2c : Vec Ideal S32x1 .f32) :
    out0_8 (F := Ideal) xT w1 b1c gc bec a11 w2 b2c
      = k0_pay1 (k0_pay2 xT w1 b1c gc bec) (k0_pay3 a11) (k0_pay4 xT w1 b1c gc bec) w2 b2c := by
  unfold out0_8
  rw [View.canon_unit_zero hz2]
  simp only [View.ld_unit_zero (S := S2x30000) hz2, View.ld_unit_zero (S := S32x2) hz2, View.ld_unit_zero (S := S32x1) hz2,
    View.ld_unit_zero (S := S1x1) hz2, View.ld_unit_zero (S := S32x32) hz2]

/-! ### The region's arithmetic in stages -/

/-- The affine map of the inputs: weights times transposed inputs, plus the offset column spread along the nodes. -/
def kPre (xT : Vec Ideal S2x30000 .f32) (w1 : Vec Ideal S32x2 .f32) (b1c : Vec Ideal S32x1 .f32) : FVec Ideal S32x30000 .f32 :=
  addf (matmul dot_S32x2_S2x30000_S32x30000_1_0_0_1_n_n none (truncf .bf16 w1 bitsLt_bf16_f32)
      (truncf .bf16 (shapeCast S2x30000 xT shapeCasts_S2x30000_S2x30000) bitsLt_bf16_f32) (constant S32x30000 .f32 0x00000000#32))
    (broadcastTo S32x30000 (shapeCast S32x1 b1c shapeCasts_S32x1_S32x1) broadcasts_S32x1_S32x30000)

/-- The row sums as a column, divided by the node count. -/
def kMean (A : FVec Ideal S32x30000 .f32) : FVec Ideal S32x1 .f32 :=
  divf (shapeCast S32x1 (multiReduction .add [1] S32 A 0x00000000#32 reduces_S32x30000_S32 (.inl rfl) rfl) shapeCasts_S32_S32x1)
    (broadcast S32x1 (Scalar.ofBits .f32 0x46EA6000#32))

/-- The array minus its row means. -/
def kCent (A : FVec Ideal S32x30000 .f32) : FVec Ideal S32x30000 .f32 :=
  subf A (broadcastTo S32x30000 (kMean A) broadcasts_S32x1_S32x30000)

/-- The row means of the squared centred array. -/
def kVar (A : FVec Ideal S32x30000 .f32) : FVec Ideal S32x1 .f32 :=
  divf (shapeCast S32x1 (multiReduction .add [1] S32 (mulf (kCent A) (kCent A)) 0x00000000#32 reduces_S32x30000_S32 (.inl rfl) rfl) shapeCasts_S32_S32x1)
    (broadcast S32x1 (Scalar.ofBits .f32 0x46EA6000#32))

/-- Centred, scaled by the inverse deviation and the gain column, plus the offset column. -/
def kNormed (A : FVec Ideal S32x30000 .f32) (gc bec : Vec Ideal S32x1 .f32) : FVec Ideal S32x30000 .f32 :=
  addf (mulf (mulf (kCent A)
        (broadcastTo S32x30000 (rsqrt (addf (kVar A) (broadcast S32x1 (Scalar.ofBits .f32 0x3727C5AC#32)))) broadcasts_S32x1_S32x30000))
      (broadcastTo S32x30000 (shapeCast S32x1 gc shapeCasts_S32x1_S32x1) broadcasts_S32x1_S32x30000))
    (broadcastTo S32x30000 (shapeCast S32x1 bec shapeCasts_S32x1_S32x1) broadcasts_S32x1_S32x30000)

/-- The rectifier: the value where it is at least zero, the slope times the value elsewhere. -/
def kAct (N : FVec Ideal S32x30000 .f32) (a11 : Vec Ideal S1x1 .f32) : FVec Ideal S32x30000 .f32 :=
  select (cmpf .oge N (broadcast S32x30000 (Scalar.ofBits .f32 0x00000000#32))) N
    (mulf (broadcastTo S32x30000 (shapeCast S1x1 a11 shapeCasts_S1x1_S1x1) broadcasts_S1x1_S32x30000) N)

/-- The second affine map. -/
def kOut (A : FVec Ideal S32x30000 .f32) (w2 : Vec Ideal S32x32 .f32) (b2c : Vec Ideal S32x1 .f32) : FVec Ideal S32x30000 .f32 :=
  addf (matmul dot_S32x32_S32x30000_S32x30000_1_0_0_1_n_n none (truncf .bf16 w2 bitsLt_bf16_f32)
      (truncf .bf16 A bitsLt_bf16_f32) (constant S32x30000 .f32 0x00000000#32))
    (broadcastTo S32x30000 (shapeCast S32x1 b2c shapeCasts_S32x1_S32x1) broadcasts_S32x1_S32x30000)

theorem pay2_eq (xT : Vec Ideal S2x30000 .f32) (w1 : Vec Ideal S32x2 .f32) (b1c gc bec : Vec Ideal S32x1 .f32) :
    k0_pay2 xT w1 b1c gc bec = kNormed (kPre xT w1 b1c) gc bec := rfl

theorem pay1_eq (N : FVec Ideal S32x30000 .f32) (a11 : Vec Ideal S1x1 .f32) (w2 : Vec Ideal S32x32 .f32) (b2c : Vec Ideal S32x1 .f32)
    (c : IVec S32x30000 1) (hc : c = cmpf .oge N (broadcast S32x30000 (Scalar.ofBits .f32 0x00000000#32))) :
    k0_pay1 N (k0_pay3 a11) c w2 b2c = kOut (kAct N a11) w2 b2c := by
  subst hc; rfl

theorem pay4_eq (xT : Vec Ideal S2x30000 .f32) (w1 : Vec Ideal S32x2 .f32) (b1c gc bec : Vec Ideal S32x1 .f32) :
    k0_pay4 xT w1 b1c gc bec = cmpf .oge (k0_pay2 xT w1 b1c gc bec) (broadcast S32x30000 (Scalar.ofBits .f32 0x00000000#32)) := rfl

/-! ### The dimension numbers of the two products: which operand entries they pair -/

theorem d1_lhs0 (i : S32x30000.Idx) (q : dot_S32x2_S2x30000_S32x30000_1_0_0_1_n_n.contr.Idx) :
    (dot_S32x2_S2x30000_S32x30000_1_0_0_1_n_n.lhsIdx i q 0).val = (i 0).val := by
  unfold DotDims.lhsIdx
  rw [dif_neg (show ¬(0 : Fin S32x2.rank) ∈ dot_S32x2_S2x30000_S32x30000_1_0_0_1_n_n.lhsBatch by decide), dif_pos (show (0 : Fin S32x2.rank) ∈ dot_S32x2_S2x30000_S32x30000_1_0_0_1_n_n.lhsNonContracting by decide)]
  rfl
theorem d1_lhs1 (i : S32x30000.Idx) (q : dot_S32x2_S2x30000_S32x30000_1_0_0_1_n_n.contr.Idx) :
    (dot_S32x2_S2x30000_S32x30000_1_0_0_1_n_n.lhsIdx i q 1).val = (q ⟨0, by decide⟩).val :=
  dot_S32x2_S2x30000_S32x30000_1_0_0_1_n_n.lhsIdx_val_of_single rfl i q
theorem d1_rhs0 (i : S32x30000.Idx) (q : dot_S32x2_S2x30000_S32x30000_1_0_0_1_n_n.contr.Idx) :
    (dot_S32x2_S2x30000_S32x30000_1_0_0_1_n_n.rhsIdx i q 0).val = (q ⟨0, by decide⟩).val :=
  dot_S32x2_S2x30000_S32x30000_1_0_0_1_n_n.rhsIdx_val_of_single rfl i q
theorem d1_rhs1 (i : S32x30000.Idx) (q : dot_S32x2_S2x30000_S32x30000_1_0_0_1_n_n.contr.Idx) :
    (dot_S32x2_S2x30000_S32x30000_1_0_0_1_n_n.rhsIdx i q 1).val = (i 1).val := by
  unfold DotDims.rhsIdx
  rw [dif_neg (show ¬(1 : Fin S2x30000.rank) ∈ dot_S32x2_S2x30000_S32x30000_1_0_0_1_n_n.rhsBatch by decide), dif_pos (show (1 : Fin S2x30000.rank) ∈ dot_S32x2_S2x30000_S32x30000_1_0_0_1_n_n.rhsNonContracting by decide)]
  rfl

theorem d2_lhs0 (i : S32x30000.Idx) (q : dot_S32x32_S32x30000_S32x30000_1_0_0_1_n_n.contr.Idx) :
    (dot_S32x32_S32x30000_S32x30000_1_0_0_1_n_n.lhsIdx i q 0).val = (i 0).val := by
  unfold DotDims.lhsIdx
  rw [dif_neg (show ¬(0 : Fin S32x32.rank) ∈ dot_S32x32_S32x30000_S32x30000_1_0_0_1_n_n.lhsBatch by decide), dif_pos (show (0 : Fin S32x32.rank) ∈ dot_S32x32_S32x30000_S32x30000_1_0_0_1_n_n.lhsNonContracting by decide)]
  rfl
theorem d2_lhs1 (i : S32x30000.Idx) (q : dot_S32x32_S32x30000_S32x30000_1_0_0_1_n_n.contr.Idx) :
    (dot_S32x32_S32x30000_S32x30000_1_0_0_1_n_n.lhsIdx i q 1).val = (q ⟨0, by decide⟩).val :=
  dot_S32x32_S32x30000_S32x30000_1_0_0_1_n_n.lhsIdx_val_of_single rfl i q
theorem d2_rhs0 (i : S32x30000.Idx) (q : dot_S32x32_S32x30000_S32x30000_1_0_0_1_n_n.contr.Idx) :
    (dot_S32x32_S32x30000_S32x30000_1_0_0_1_n_n.rhsIdx i q 0).val = (q ⟨0, by decide⟩).val :=
  dot_S32x32_S32x30000_S32x30000_1_0_0_1_n_n.rhsIdx_val_of_single rfl i q
theorem d2_rhs1 (i : S32x30000.Idx) (q : dot_S32x32_S32x30000_S32x30000_1_0_0_1_n_n.contr.Idx) :
    (dot_S32x32_S32x30000_S32x30000_1_0_0_1_n_n.rhsIdx i q 1).val = (i 1).val := by
  unfold DotDims.rhsIdx
  rw [dif_neg (show ¬(1 : Fin S32x30000.rank) ∈ dot_S32x32_S32x30000_S32x30000_1_0_0_1_n_n.rhsBatch by decide), dif_pos (show (1 : Fin S32x30000.rank) ∈ dot_S32x32_S32x30000_S32x30000_1_0_0_1_n_n.rhsNonContracting by decide)]
  rfl

/-- A one-by-one array spread over the whole matrix reads its one entry everywhere. -/
theorem bcast11 {α : Type} (x : S1x1.Idx → α) (h : S1x1.Broadcasts S32x30000) (p : Fin 32) (q : Fin 30000) :
    broadcastTo S32x30000 x h (ix2 p q) = x (ix2 (0 : Fin 1) (0 : Fin 1)) :=
  broadcastTo_apply x h _ _ fun c => by
    match c with
    | ⟨0, _⟩ => show (0 : Nat) = if (1 : Nat) = 1 then 0 else p.val; rw [if_pos rfl]
    | ⟨1, _⟩ => show (0 : Nat) = if (1 : Nat) = 1 then 0 else q.val; rw [if_pos rfl]

/-! ### Each stage read at an entry -/

theorem kPre_apply (xT : Vec Ideal S2x30000 .f32) (w1 : Vec Ideal S32x2 .f32) (b1c : Vec Ideal S32x1 .f32) (j : Fin 32) (n : Fin 30000) :
    kPre xT w1 b1c (ix2 j n) = (∑ k : Fin 2, w1 (ix2 j k) * xT (ix2 k n)) + b1c (ix2 j (0 : Fin 1)) := by
  unfold kPre
  rw [addf_apply]
  refine congrArg₂ (· + ·) ?_ ?_
  · refine (Cert.LibMatmul.matmul_zero_ix2 dot_S32x2_S2x30000_S32x30000_1_0_0_1_n_n none rfl rfl d1_lhs0 d1_lhs1 d1_rhs0 d1_rhs1 _ _ (ix2 j n)).trans ?_
    refine Finset.sum_congr rfl fun k _ => ?_
    show w1 (ix2 j k) * shapeCast S2x30000 xT shapeCasts_S2x30000_S2x30000 (ix2 k n) = _
    rw [shapeCast_self]
  · rw [Cert.LibBcastCol.bcastCol, shapeCast_self]

theorem kMean_apply (A : FVec Ideal S32x30000 .f32) (P : Fin 32 → Fin 30000 → EReal) (hA : ∀ j n, A (ix2 j n) = P j n) (j : Fin 32) :
    kMean A (ix2 j (0 : Fin 1)) = mean P j := by
  unfold kMean mean
  rw [divf_apply]
  refine congrArg₂ Ideal.div ?_ rfl
  refine (Cert.Lib.UnitAxis.shapeCast_a_a1_apply _ _ j 0).trans ?_
  refine (Cert.LibRowSum.multiReduction_add_row A _ _ _ _ j).trans ?_
  exact Finset.sum_congr rfl fun n _ => hA j n

theorem kCent_apply (A : FVec Ideal S32x30000 .f32) (P : Fin 32 → Fin 30000 → EReal) (hA : ∀ j n, A (ix2 j n) = P j n) (j : Fin 32) (n : Fin 30000) :
    kCent A (ix2 j n) = P j n - mean P j := by
  unfold kCent
  rw [subf_apply, Cert.LibBcastCol.bcastCol, kMean_apply A P hA, hA]

theorem kVar_apply (A : FVec Ideal S32x30000 .f32) (P : Fin 32 → Fin 30000 → EReal) (hA : ∀ j n, A (ix2 j n) = P j n) (j : Fin 32) :
    kVar A (ix2 j (0 : Fin 1)) = var P j := by
  unfold kVar var
  rw [divf_apply]
  refine congrArg₂ Ideal.div ?_ rfl
  refine (Cert.Lib.UnitAxis.shapeCast_a_a1_apply _ _ j 0).trans ?_
  refine (Cert.LibRowSum.multiReduction_add_row _ _ _ _ _ j).trans ?_
  refine Finset.sum_congr rfl fun n _ => ?_
  rw [mulf_apply, kCent_apply A P hA]

theorem kNormed_apply (A : FVec Ideal S32x30000 .f32) (gc bec : Vec Ideal S32x1 .f32) (P : Fin 32 → Fin 30000 → EReal)
    (hA : ∀ j n, A (ix2 j n) = P j n) (j : Fin 32) (n : Fin 30000) :
    kNormed A gc bec (ix2 j n) = normed P (fun j => gc (ix2 j (0 : Fin 1))) (fun j => bec (ix2 j (0 : Fin 1))) j n := by
  unfold kNormed normed
  rw [addf_apply, mulf_apply, mulf_apply, kCent_apply A P hA, Cert.LibBcastCol.bcastCol, Cert.LibBcastCol.bcastCol, Cert.LibBcastCol.bcastCol,
    shapeCast_self, shapeCast_self]
  show _ * Ideal.rsqrt (kVar A (ix2 j (0 : Fin 1)) + Ideal.ofBits .f32 0x3727C5AC#32) * _ + _ = _
  rw [kVar_apply A P hA]

theorem kAct_apply (N : FVec Ideal S32x30000 .f32) (a11 : Vec Ideal S1x1 .f32) (Q : Fin 32 → Fin 30000 → EReal)
    (hN : ∀ j n, N (ix2 j n) = Q j n) (j : Fin 32) (n : Fin 30000) :
    kAct N a11 (ix2 j n) = act (a11 (ix2 (0 : Fin 1) (0 : Fin 1))) Q j n := by
  unfold kAct act
  rw [select_apply, mulf_apply, cmpf_apply, bcast11, shapeCast_self, hN]
  rfl

theorem kOut_apply (A : FVec Ideal S32x30000 .f32) (w2 : Vec Ideal S32x32 .f32) (b2c : Vec Ideal S32x1 .f32) (Q : Fin 32 → Fin 30000 → EReal)
    (hA : ∀ j n, A (ix2 j n) = Q j n) (j : Fin 32) (n : Fin 30000) :
    kOut A w2 b2c (ix2 j n) = outM (fun j k => w2 (ix2 j k)) Q (fun j => b2c (ix2 j (0 : Fin 1))) j n := by
  unfold kOut outM
  rw [addf_apply]
  refine congrArg₂ (· + ·) ?_ ?_
  · refine (Cert.LibMatmul.matmul_zero_ix2 dot_S32x32_S32x30000_S32x30000_1_0_0_1_n_n none rfl rfl d2_lhs0 d2_lhs1 d2_rhs0 d2_rhs1 _ _ (ix2 j n)).trans ?_
    refine Finset.sum_congr rfl fun k _ => ?_
    show w2 (ix2 j k) * A (ix2 k n) = _
    rw [hA]
  · rw [Cert.LibBcastCol.bcastCol, shapeCast_self]

/-- The region's output at (feature j, node n), as the shared mathematics of its operands' entries. -/
theorem kernel_apply
    (xT : Vec Ideal S2x30000 .f32) (w1 : Vec Ideal S32x2 .f32)
    (b1c gc bec : Vec Ideal S32x1 .f32) (a11 : Vec Ideal S1x1 .f32)
    (w2 : Vec Ideal S32x32 .f32) (b2c : Vec Ideal S32x1 .f32) (P : Fin 32 → Fin 30000 → EReal)
    (hP : ∀ j n, (∑ k : Fin 2, w1 (ix2 j k) * xT (ix2 k n)) + b1c (ix2 j (0 : Fin 1)) = P j n)
    (j : Fin 32) (n : Fin 30000) :
    out0_8 (F := Ideal) xT w1 b1c gc bec a11 w2 b2c (ix2 j n)
      = outM (fun j k => w2 (ix2 j k))
          (act (a11 (ix2 (0 : Fin 1) (0 : Fin 1))) (normed P (fun j => gc (ix2 j (0 : Fin 1))) (fun j => bec (ix2 j (0 : Fin 1)))))
          (fun j => b2c (ix2 j (0 : Fin 1))) j n := by
  rw [out_eq_payload, pay1_eq _ a11 w2 b2c _ (pay4_eq xT w1 b1c gc bec), pay2_eq]
  refine kOut_apply _ w2 b2c _ (fun j n => ?_) j n
  refine kAct_apply _ a11 _ (fun j n => ?_) j n
  refine kNormed_apply _ gc bec P (fun j n => ?_) j n
  exact (kPre_apply xT w1 b1c j n).trans (hP j n)

end Kernel

section Reference
open Cert.ReferenceIdeal Cert.ReferenceIdeal.Read

variable (x0 : (⟨S30000x2, .f32⟩ : BufTy).Contents (Elt Ideal)) (w1 : (⟨S32x2, .f32⟩ : BufTy).Contents (Elt Ideal))
  (x4 x5 x6 : (⟨S32, .f32⟩ : BufTy).Contents (Elt Ideal)) (x7 : (⟨S_, .f32⟩ : BufTy).Contents (Elt Ideal))
  (w2 : (⟨S32x32, .f32⟩ : BufTy).Contents (Elt Ideal)) (x9 : (⟨S32, .f32⟩ : BufTy).Contents (Elt Ideal))

/-! ### A feature vector spread over the nodes: read at (node n, feature j) it is the vector's entry j -/

theorem ref_v3 (n : Fin 30000) (j : Fin 32) : val_main_v3 (F := Ideal) x4 (ix2 n j) = x4 (ix1 j) := by
  rw [val_main_v3_apply, val_main_v2_apply]
  exact congrArg x4 (funext fun a => Fin.ext (by match a with | ⟨0, _⟩ => rfl))

theorem ref_v9 (n : Fin 30000) (j : Fin 32) : val_main_v9 (F := Ideal) x0 w1 x4 (ix2 n j) = val_main_v7 (F := Ideal) x0 w1 x4 (ix1 j) := by
  rw [val_main_v9_apply, val_main_v8_apply]
  exact congrArg (val_main_v7 (F := Ideal) x0 w1 x4) (funext fun a => Fin.ext (by match a with | ⟨0, _⟩ => rfl))

theorem ref_v16 (n : Fin 30000) (j : Fin 32) : val_main_v16 (F := Ideal) x0 w1 x4 (ix2 n j) = val_main_v7 (F := Ideal) x0 w1 x4 (ix1 j) := by
  rw [val_main_v16_apply, val_main_v15_apply]
  exact congrArg (val_main_v7 (F := Ideal) x0 w1 x4) (funext fun a => Fin.ext (by match a with | ⟨0, _⟩ => rfl))

theorem ref_v22 (n : Fin 30000) (j : Fin 32) : val_main_v22 (F := Ideal) x0 w1 x4 (ix2 n j) = val_main_v20 (F := Ideal) x0 w1 x4 (ix1 j) := by
  rw [val_main_v22_apply, val_main_v21_apply]
  exact congrArg (val_main_v20 (F := Ideal) x0 w1 x4) (funext fun a => Fin.ext (by match a with | ⟨0, _⟩ => rfl))

theorem ref_v25 (n : Fin 30000) (j : Fin 32) : val_main_v25 (F := Ideal) x5 (ix2 n j) = x5 (ix1 j) := by
  rw [val_main_v25_apply, val_main_v24_apply]
  exact congrArg x5 (funext fun a => Fin.ext (by match a with | ⟨0, _⟩ => rfl))

theorem ref_v28 (n : Fin 30000) (j : Fin 32) : val_main_v28 (F := Ideal) x6 (ix2 n j) = x6 (ix1 j) := by
  rw [val_main_v28_apply, val_main_v27_apply]
  exact congrArg x6 (funext fun a => Fin.ext (by match a with | ⟨0, _⟩ => rfl))

theorem ref_v38 (n : Fin 30000) (j : Fin 32) : val_main_v38 (F := Ideal) x9 (ix2 n j) = x9 (ix1 j) := by
  rw [val_main_v38_apply, val_main_v37_apply]
  exact congrArg x9 (funext fun a => Fin.ext (by match a with | ⟨0, _⟩ => rfl))

/-! ### The reference's layers read at (node n, feature j) -/

theorem ref_pre (n : Fin 30000) (j : Fin 32) : val_main_v4 (F := Ideal) x0 w1 x4 (ix2 n j) = pre x0 w1 x4 j n := by
  rw [val_main_v4_apply, val_main_v1_apply, ref_v3]
  unfold pre
  show (∑ k : Fin 2, x0 (lidx_main_v1 (ix2 n j) k) * val_main_v0 (F := Ideal) w1 (ridx_main_v1 (ix2 n j) k)) + x4 (ix1 j) = _
  refine congrArg (· + x4 (ix1 j)) (Finset.sum_congr rfl fun k _ => ?_)
  rw [val_main_v0_apply, mul_comm]
  refine congrArg₂ (· * ·) (congrArg w1 ?_) (congrArg x0 ?_)
  · exact funext fun a => Fin.ext (by match a with | ⟨0, _⟩ => rfl | ⟨1, _⟩ => rfl)
  · exact funext fun a => Fin.ext (by match a with | ⟨0, _⟩ => rfl | ⟨1, _⟩ => rfl)

theorem ref_mean (j : Fin 32) : val_main_v7 (F := Ideal) x0 w1 x4 (ix1 j) = mean (pre x0 w1 x4) j := by
  rw [val_main_v7_apply, val_main_v5_apply, val_main_v6_apply, val_main_cst_0_apply, val_main_cst_apply]
  unfold mean
  show Ideal.div (Ideal.ofBits .f32 0x00000000#32 + ∑ k : Fin 30000, val_main_v4 (F := Ideal) x0 w1 x4 (idx_main_v5 (ix1 j) k)) (Ideal.ofBits .f32 0x46EA6000#32) = _
  rw [Ideal.ofBits_zero_f32, zero_add]
  refine congrArg₂ Ideal.div ?_ rfl
  refine Finset.sum_congr rfl fun n _ => ?_
  refine Eq.trans (congrArg (val_main_v4 (F := Ideal) x0 w1 x4) ?_) (ref_pre x0 w1 x4 n j)
  exact funext fun a => Fin.ext (by match a with | ⟨0, _⟩ => rfl | ⟨1, _⟩ => rfl)

theorem ref_cent (n : Fin 30000) (j : Fin 32) :
    val_main_v10 (F := Ideal) x0 w1 x4 (ix2 n j) = pre x0 w1 x4 j n - mean (pre x0 w1 x4) j := by
  rw [val_main_v10_apply, ref_pre, ref_v9, ref_mean]
  rfl

theorem ref_var (j : Fin 32) : val_main_v14 (F := Ideal) x0 w1 x4 (ix1 j) = var (pre x0 w1 x4) j := by
  rw [val_main_v14_apply, val_main_v12_apply, val_main_v13_apply, val_main_cst_2_apply, val_main_cst_1_apply]
  unfold var
  show Ideal.div (Ideal.ofBits .f32 0x00000000#32 + ∑ k : Fin 30000, val_main_v11 (F := Ideal) x0 w1 x4 (idx_main_v12 (ix1 j) k)) (Ideal.ofBits .f32 0x46EA6000#32) = _
  rw [Ideal.ofBits_zero_f32, zero_add]
  refine congrArg₂ Ideal.div ?_ rfl
  refine Finset.sum_congr rfl fun n _ => ?_
  have e : idx_main_v12 (ix1 j) n = ix2 n j := funext fun a => Fin.ext (by match a with | ⟨0, _⟩ => rfl | ⟨1, _⟩ => rfl)
  rw [e, val_main_v11_apply, ref_cent]
  rfl

theorem ref_normed (n : Fin 30000) (j : Fin 32) :
    val_main_v29 (F := Ideal) x0 w1 x4 x5 x6 (ix2 n j) = normed (pre x0 w1 x4) (fun j => x5 (ix1 j)) (fun j => x6 (ix1 j)) j n := by
  rw [val_main_v29_apply, val_main_v26_apply, val_main_v23_apply, val_main_v17_apply, ref_pre, ref_v16, ref_mean, ref_v22,
    val_main_v20_apply, val_main_v19_apply, ref_var, val_main_v18_apply, val_main_cst_3_apply, ref_v25, ref_v28]
  rfl

theorem ref_act (n : Fin 30000) (j : Fin 32) :
    val_main_v34 (F := Ideal) x0 w1 x4 x5 x6 x7 (ix2 n j)
      = act (x7 ix0) (normed (pre x0 w1 x4) (fun j => x5 (ix1 j)) (fun j => x6 (ix1 j))) j n := by
  rw [val_main_v34_apply, val_main_v31_apply, val_main_v33_apply, val_main_v32_apply, val_main_v30_apply, val_main_cst_4_apply, ref_normed]
  rfl

theorem ref_out (n : Fin 30000) (j : Fin 32) :
    val_main_v39 (F := Ideal) x0 w1 x4 x5 x6 x7 w2 x9 (ix2 n j)
      = outM (fun j k => w2 (ix2 j k)) (act (x7 ix0) (normed (pre x0 w1 x4) (fun j => x5 (ix1 j)) (fun j => x6 (ix1 j))))
          (fun j => x9 (ix1 j)) j n := by
  rw [val_main_v39_apply, val_main_v36_apply, ref_v38]
  unfold outM
  show (∑ k : Fin 32, val_main_v34 (F := Ideal) x0 w1 x4 x5 x6 x7 (lidx_main_v36 (ix2 n j) k) * val_main_v35 (F := Ideal) w2 (ridx_main_v36 (ix2 n j) k)) + x9 (ix1 j) = _
  refine congrArg (· + x9 (ix1 j)) (Finset.sum_congr rfl fun k _ => ?_)
  have el : lidx_main_v36 (ix2 n j) k = ix2 n k := funext fun a => Fin.ext (by match a with | ⟨0, _⟩ => rfl | ⟨1, _⟩ => rfl)
  rw [el, ref_act, val_main_v35_apply, mul_comm]
  refine congrArg (· * _) (congrArg w2 ?_)
  exact funext fun a => Fin.ext (by match a with | ⟨0, _⟩ => rfl | ⟨1, _⟩ => rfl)

end Reference

/-- The region's output at (feature j, node n) is the reference's hidden layer at (node n, feature j), when the
    region's operands are the reference's arguments re-laid: the inputs transposed, each vector as a column, the
    slope as a one-by-one array. -/
theorem mlp_eq
    (xT : Vec Ideal Cert.KernelIdeal.S2x30000 .f32) (w1 : Vec Ideal Cert.KernelIdeal.S32x2 .f32)
    (b1c gc bec : Vec Ideal Cert.KernelIdeal.S32x1 .f32) (a11 : Vec Ideal Cert.KernelIdeal.S1x1 .f32)
    (w2 : Vec Ideal Cert.KernelIdeal.S32x32 .f32) (b2c : Vec Ideal Cert.KernelIdeal.S32x1 .f32)
    (x0 : Vec Ideal Cert.ReferenceIdeal.S30000x2 .f32) (x4 x5 x6 x9 : Vec Ideal Cert.ReferenceIdeal.S32 .f32)
    (x7 : Vec Ideal Cert.ReferenceIdeal.S_ .f32)
    (hx : ∀ (n : Fin 30000) (k : Fin 2), xT (ix2 k n) = x0 (ix2 n k))
    (hb1 : ∀ j : Fin 32, b1c (ix2 j (0 : Fin 1)) = x4 (ix1 j))
    (hg : ∀ j : Fin 32, gc (ix2 j (0 : Fin 1)) = x5 (ix1 j))
    (hbe : ∀ j : Fin 32, bec (ix2 j (0 : Fin 1)) = x6 (ix1 j))
    (ha : a11 (ix2 (0 : Fin 1) (0 : Fin 1)) = x7 ix0)
    (hb2 : ∀ j : Fin 32, b2c (ix2 j (0 : Fin 1)) = x9 (ix1 j))
    (n : Fin 30000) (j : Fin 32) :
    Cert.KernelIdeal.Gen.out0_8 (F := Ideal) xT w1 b1c gc bec a11 w2 b2c (ix2 j n)
      = Cert.ReferenceIdeal.Read.val_main_v39 (F := Ideal) x0 w1 x4 x5 x6 x7 w2 x9 (ix2 n j) := by
  have hP : ∀ (j : Fin 32) (n : Fin 30000),
      (∑ k : Fin 2, w1 (ix2 j k) * xT (ix2 k n)) + b1c (ix2 j (0 : Fin 1)) = pre x0 w1 x4 j n := fun j n => by
    unfold pre
    rw [hb1]
    exact congrArg (· + x4 (ix1 j)) (Finset.sum_congr rfl fun k _ => by rw [hx])
  have hg' : (fun j : Fin 32 => gc (ix2 j (0 : Fin 1))) = fun j => x5 (ix1 j) := funext hg
  have hbe' : (fun j : Fin 32 => bec (ix2 j (0 : Fin 1))) = fun j => x6 (ix1 j) := funext hbe
  have hb2' : (fun j : Fin 32 => b2c (ix2 j (0 : Fin 1))) = fun j => x9 (ix1 j) := funext hb2
  rw [kernel_apply xT w1 b1c gc bec a11 w2 b2c (pre x0 w1 x4) hP j n, ref_out x0 w1 x4 x5 x6 x7 w2 x9 n j, hg', hbe', hb2', ha]

end Cert.Bridge.Mlp

end
-- ==== Proof.LibBcastRow.lean ====
/-
  A row spread down the rows: an array `[1, b]` broadcast to `[a, b]` reads, at `(p, q)`, the row's entry `q`,
  whatever `p` is; and a vector `[b]` cast to the row `[1, b]` reads, at `(u, q)`, the vector's entry `q`.
-/
import Idealize.ShloMosaic.Lib.Pipeline.Value
import Idealize.ShloMosaic.Lib.ValueIdx

namespace Cert.LibBcastRow

open Idealize.ShloMosaic Idealize.ShloMosaic.ValueIdx

/-- A row `[1, b]` broadcast to `[a, b]` reads, at `(p, q)`, the row's entry `q`. -/
theorem bcastRow {α : Type} {a b : ℕ} (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 (0 : Fin 1) q) :=
  broadcastTo_apply x h _ _ fun c => by
    match c with
    | ⟨0, _⟩ => rfl
    | ⟨1, _⟩ =>
      show q.val = if b = 1 then 0 else q.val
      split
      · omega
      · rfl

/-- A vector `[b]` cast to the row `[1, b]` reads, at `(u, q)`, the vector's entry `q`. -/
theorem shapeCast_b_1b_apply {α : Type} {b : ℕ} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) :=
  shapeCast_apply x h _ _ (by
    have hu : u.val = 0 := by omega
    rw [Shape.rowMajor_val_two, Shape.rowMajor_val_one]
    show q.val = u.val * b + q.val
    rw [hu, Nat.zero_mul, Nat.zero_add])

end Cert.LibBcastRow
-- ==== Proof.BodyConv.lean ====
/-
  The third kernel region against the reference's last layers.

  The third region scales each node's aggregated features by the reciprocal of the node's degree bounded below by
  one, maps them through two weight matrices with their biases, and the reference divides by the bounded degree
  instead; the bound is at least one, so it is never zero, and dividing by it is multiplying by its reciprocal.
  Both sides are read at one node: the region's two matrix products as sums over the contracted extent, the
  reference's two products likewise, and the sums are joined term by term.
-/
import proofs.«133878_j20023137534015_1_alg».proof.Proof.Gen.KernelIdeal.Frame
import proofs.«133878_j20023137534015_1_alg».proof.Proof.Gen.ReferenceIdeal.Read
import proofs.«133878_j20023137534015_1_alg».proof.Proof.LibMatmul
import proofs.«133878_j20023137534015_1_alg».proof.Proof.LibBcastCol
import proofs.«133878_j20023137534015_1_alg».proof.Proof.LibBcastRow
import Idealize.ShloMosaic.Lib.ValueIdx
import Idealize.ShloMosaic.Lib.Pipeline.Value
import Idealize.ShloMosaic.PureOps.Ideal.Laws

noncomputable section

namespace Cert.Bridge.Conv

open Cert.KernelIdeal Cert.KernelIdeal.Gen
open Idealize.ShloMosaic Idealize.ShloMosaic.TcCoe Idealize.ShloMosaic.ValueIdx Idealize.SL.Sem
open Idealize.ShloMosaic.Pipeline (Dat)

/-- The zero offsets of a whole-buffer rectangle, as the constant function. -/
theorem hz2 : (![0, 0] : Fin 2 → Nat) = fun _ => 0 := funext fun a => by fin_cases a <;> rfl

/-- The region's body loads and stores whole buffers, so what it leaves in the output buffer is its arithmetic of the
    input buffers. -/
theorem out2_6_eq (a : Vec Ideal Cert.KernelIdeal.S32x30000 .f32) (b : Vec Ideal Cert.KernelIdeal.S1x30000 .f32)
    (c : Vec Ideal Cert.KernelIdeal.S32x32 .f32) (d : Vec Ideal Cert.KernelIdeal.S32x1 .f32)
    (e : Vec Ideal Cert.KernelIdeal.S1x32 .f32) (f : Vec Ideal Cert.KernelIdeal.S1x1 .f32) :
    out2_6 (F := Ideal) a b c d e f = k2_pay1 (F := Ideal) a b c d e f := by
  unfold out2_6
  rw [View.canon_unit_zero hz2]
  simp only [View.ld_unit_zero (S := S32x30000) hz2, View.ld_unit_zero (S := S1x30000) hz2,
    View.ld_unit_zero (S := S32x32) hz2, View.ld_unit_zero (S := S32x1) hz2,
    View.ld_unit_zero (S := S1x32) hz2, View.ld_unit_zero (S := S1x1) hz2]

/-- What the word of the constant 1.0 denotes. -/
abbrev one : EReal := Ideal.ofBits .f32 0x3F800000#32

/-! ### The two matrix products of the region read at an entry -/

/-- The first product's dimension numbers pair the left operand's entry (row of the output, contraction index) … -/
theorem mmA_l0 (i : S32x30000.Idx) (q : dot_S32x32_S32x30000_S32x30000_1_0_0_1_n_n.contr.Idx) :
    (dot_S32x32_S32x30000_S32x30000_1_0_0_1_n_n.lhsIdx i q 0).val = (i 0).val := by
  unfold DotDims.lhsIdx
  rw [dif_neg (show ¬(0 : Fin S32x32.rank) ∈ dot_S32x32_S32x30000_S32x30000_1_0_0_1_n_n.lhsBatch by decide), dif_pos (show (0 : Fin S32x32.rank) ∈ dot_S32x32_S32x30000_S32x30000_1_0_0_1_n_n.lhsNonContracting by decide)]
  rfl
theorem mmA_l1 (i : S32x30000.Idx) (q : dot_S32x32_S32x30000_S32x30000_1_0_0_1_n_n.contr.Idx) :
    (dot_S32x32_S32x30000_S32x30000_1_0_0_1_n_n.lhsIdx i q 1).val = (q ⟨0, by decide⟩).val :=
  dot_S32x32_S32x30000_S32x30000_1_0_0_1_n_n.lhsIdx_val_of_single rfl i q
theorem mmA_r0 (i : S32x30000.Idx) (q : dot_S32x32_S32x30000_S32x30000_1_0_0_1_n_n.contr.Idx) :
    (dot_S32x32_S32x30000_S32x30000_1_0_0_1_n_n.rhsIdx i q 0).val = (q ⟨0, by decide⟩).val :=
  dot_S32x32_S32x30000_S32x30000_1_0_0_1_n_n.rhsIdx_val_of_single rfl i q
/-- … with the right operand's entry (contraction index, column of the output). -/
theorem mmA_r1 (i : S32x30000.Idx) (q : dot_S32x32_S32x30000_S32x30000_1_0_0_1_n_n.contr.Idx) :
    (dot_S32x32_S32x30000_S32x30000_1_0_0_1_n_n.rhsIdx i q 1).val = (i 1).val := by
  unfold DotDims.rhsIdx
  rw [dif_neg (show ¬(1 : Fin S32x30000.rank) ∈ dot_S32x32_S32x30000_S32x30000_1_0_0_1_n_n.rhsBatch by decide), dif_pos (show (1 : Fin S32x30000.rank) ∈ dot_S32x32_S32x30000_S32x30000_1_0_0_1_n_n.rhsNonContracting by decide)]
  rfl

/-- The first product, weights times scaled features, at row j and node n. -/
theorem mmA_at {φ₁ φ₂ : FTy} (lhs : FVec Ideal S32x32 φ₁) (rhs : FVec Ideal S32x30000 φ₂) (j : Fin 32) (n : Fin 30000) :
    matmul dot_S32x32_S32x30000_S32x30000_1_0_0_1_n_n none lhs rhs (constant S32x30000 .f32 0x00000000#32) (ix2 j n)
      = ∑ k : Fin 32, lhs (ix2 j k) * rhs (ix2 k n) :=
  Cert.LibMatmul.matmul_zero_ix2 dot_S32x32_S32x30000_S32x30000_1_0_0_1_n_n none rfl rfl mmA_l0 mmA_l1 mmA_r0 mmA_r1 lhs rhs (ix2 j n)

/-- The second product's dimension numbers pair the left operand's entry (row of the output, contraction index) … -/
theorem mmB_l0 (i : S1x30000.Idx) (q : dot_S1x32_S32x30000_S1x30000_1_0_0_1_n_n.contr.Idx) :
    (dot_S1x32_S32x30000_S1x30000_1_0_0_1_n_n.lhsIdx i q 0).val = (i 0).val := by
  unfold DotDims.lhsIdx
  rw [dif_neg (show ¬(0 : Fin S1x32.rank) ∈ dot_S1x32_S32x30000_S1x30000_1_0_0_1_n_n.lhsBatch by decide), dif_pos (show (0 : Fin S1x32.rank) ∈ dot_S1x32_S32x30000_S1x30000_1_0_0_1_n_n.lhsNonContracting by decide)]
  rfl
theorem mmB_l1 (i : S1x30000.Idx) (q : dot_S1x32_S32x30000_S1x30000_1_0_0_1_n_n.contr.Idx) :
    (dot_S1x32_S32x30000_S1x30000_1_0_0_1_n_n.lhsIdx i q 1).val = (q ⟨0, by decide⟩).val :=
  dot_S1x32_S32x30000_S1x30000_1_0_0_1_n_n.lhsIdx_val_of_single rfl i q
theorem mmB_r0 (i : S1x30000.Idx) (q : dot_S1x32_S32x30000_S1x30000_1_0_0_1_n_n.contr.Idx) :
    (dot_S1x32_S32x30000_S1x30000_1_0_0_1_n_n.rhsIdx i q 0).val = (q ⟨0, by decide⟩).val :=
  dot_S1x32_S32x30000_S1x30000_1_0_0_1_n_n.rhsIdx_val_of_single rfl i q
/-- … with the right operand's entry (contraction index, column of the output). -/
theorem mmB_r1 (i : S1x30000.Idx) (q : dot_S1x32_S32x30000_S1x30000_1_0_0_1_n_n.contr.Idx) :
    (dot_S1x32_S32x30000_S1x30000_1_0_0_1_n_n.rhsIdx i q 1).val = (i 1).val := by
  unfold DotDims.rhsIdx
  rw [dif_neg (show ¬(1 : Fin S32x30000.rank) ∈ dot_S1x32_S32x30000_S1x30000_1_0_0_1_n_n.rhsBatch by decide), dif_pos (show (1 : Fin S32x30000.rank) ∈ dot_S1x32_S32x30000_S1x30000_1_0_0_1_n_n.rhsNonContracting by decide)]
  rfl

/-- The second product, the score weights times the hidden features, at node n. -/
theorem mmB_at {φ₁ φ₂ : FTy} (lhs : FVec Ideal S1x32 φ₁) (rhs : FVec Ideal S32x30000 φ₂) (n : Fin 30000) :
    matmul dot_S1x32_S32x30000_S1x30000_1_0_0_1_n_n none lhs rhs (constant S1x30000 .f32 0x00000000#32) (ix2 (0 : Fin 1) n)
      = ∑ k : Fin 32, lhs (ix2 (0 : Fin 1) k) * rhs (ix2 k n) :=
  Cert.LibMatmul.matmul_zero_ix2 dot_S1x32_S32x30000_S1x30000_1_0_0_1_n_n none rfl rfl mmB_l0 mmB_l1 mmB_r0 mmB_r1 lhs rhs (ix2 (0 : Fin 1) n)

/-- The region's arithmetic read at node n: the score weights times (the feature weights times the aggregate scaled by
    the reciprocal of the bounded degree, plus the first bias), plus the second bias. -/
theorem k2_at (v0 : Vec Ideal Cert.KernelIdeal.S32x30000 .f32) (v2 : Vec Ideal Cert.KernelIdeal.S1x30000 .f32)
    (v11 : Vec Ideal Cert.KernelIdeal.S32x32 .f32) (v14 : Vec Ideal Cert.KernelIdeal.S32x1 .f32)
    (v19 : Vec Ideal Cert.KernelIdeal.S1x32 .f32) (v22 : Vec Ideal Cert.KernelIdeal.S1x1 .f32) (n : Fin 30000) :
    k2_pay1 (F := Ideal) v0 v2 v11 v14 v19 v22 (ix2 (0 : Fin 1) n)
      = (∑ j : Fin 32, v19 (ix2 (0 : Fin 1) j) *
          ((∑ k : Fin 32, v11 (ix2 j k) * (v0 (ix2 k n) * Ideal.div one (max (v2 (ix2 (0 : Fin 1) n)) one)))
            + v14 (ix2 j (0 : Fin 1))))
        + v22 (ix2 (0 : Fin 1) (0 : Fin 1)) := by
  unfold k2_pay1
  simp only [shapeCast_self]
  rw [addf_apply]
  refine congrArg₂ (· + ·) ?_ ?_
  · rw [mmB_at]
    refine Finset.sum_congr rfl fun j _ => ?_
    refine congrArg₂ (· * ·) rfl ?_
    rw [truncf_apply, addf_apply]
    refine congrArg₂ (· + ·) ?_ ?_
    · rw [mmA_at]
      refine Finset.sum_congr rfl fun k _ => ?_
      refine congrArg₂ (· * ·) rfl ?_
      rw [truncf_apply, mulf_apply, Cert.LibBcastRow.bcastRow]
      rfl
    · exact Cert.LibBcastCol.bcastCol v14 broadcasts_S32x1_S32x30000 j n
  · exact Cert.LibBcastCol.bcastCol v22 broadcasts_S1x1_S1x30000 (0 : Fin 1) n

/-! ### The reference's last layers read at an entry -/

section Ref
open Cert.ReferenceIdeal.Read

variable (x0 : Vec Ideal Cert.ReferenceIdeal.S30000x2 .f32) (x1 : Vec Ideal Cert.ReferenceIdeal.S30000x512 .f32)
    (x2 : IVec Cert.ReferenceIdeal.S2x480000 32) (x3 : Vec Ideal Cert.ReferenceIdeal.S32x2 .f32)
    (x4 x5 x6 : Vec Ideal Cert.ReferenceIdeal.S32 .f32) (x7 : Vec Ideal Cert.ReferenceIdeal.S_ .f32)
    (x8 : Vec Ideal Cert.ReferenceIdeal.S32x32 .f32) (x9 : Vec Ideal Cert.ReferenceIdeal.S32 .f32)
    (x10 : Vec Ideal Cert.ReferenceIdeal.S32x32 .f32) (x11 : Vec Ideal Cert.ReferenceIdeal.S32 .f32)
    (x12 : Vec Ideal Cert.ReferenceIdeal.S1x32 .f32) (x13 : Vec Ideal Cert.ReferenceIdeal.S1 .f32)

/-- The bounded degree spread over the feature axis: at node n, any feature, the degree of n bounded below by one. -/
theorem ref_deg (n : Fin 30000) (k : Fin 32) :
    val_main_v85 (F := Ideal) x2 (ix2 n k) = max (val_main_v81 (F := Ideal) x2 (ix1 n)) one := by
  rw [val_main_v85_apply, val_main_v84_apply, val_main_v83_apply, val_main_v82_apply, val_main_cst_15_apply]
  have e : idx_main_v84 (idx_main_v85 (ix2 n k)) = ix1 n := funext fun a => by match a with | ⟨0, _⟩ => rfl
  rw [e]
  rfl

/-- The mean aggregate: the aggregate divided by the bounded degree. -/
theorem ref_mean (n : Fin 30000) (k : Fin 32) :
    val_main_v86 (F := Ideal) x0 x1 x2 x3 x4 x5 x6 x7 x8 x9 (ix2 n k)
      = Ideal.div (val_main_v77 (F := Ideal) x0 x1 x2 x3 x4 x5 x6 x7 x8 x9 (ix2 n k)) (max (val_main_v81 (F := Ideal) x2 (ix1 n)) one) := by
  rw [val_main_v86_apply, ref_deg]
  rfl

/-- The first product of the reference at node n, row j of the weights. -/
theorem ref_lin (n : Fin 30000) (j : Fin 32) :
    val_main_v88 (F := Ideal) x0 x1 x2 x3 x4 x5 x6 x7 x8 x9 x10 (ix2 n j)
      = ∑ k : Fin 32, val_main_v86 (F := Ideal) x0 x1 x2 x3 x4 x5 x6 x7 x8 x9 (ix2 n k) * x10 (ix2 j k) := by
  rw [val_main_v88_apply]
  refine Finset.sum_congr rfl fun k _ => ?_
  rw [val_main_v87_apply]
  have el : lidx_main_v88 (ix2 n j) k = ix2 n k := funext fun a => by match a with | ⟨0, _⟩ => rfl | ⟨1, _⟩ => rfl
  have er : idx_main_v87 (ridx_main_v88 (ix2 n j) k) = ix2 j k := funext fun a => by match a with | ⟨0, _⟩ => rfl | ⟨1, _⟩ => rfl
  rw [el, er]

/-- The hidden features of the reference: the first product plus its bias. -/
theorem ref_hid (n : Fin 30000) (j : Fin 32) :
    val_main_v91 (F := Ideal) x0 x1 x2 x3 x4 x5 x6 x7 x8 x9 x10 x11 (ix2 n j)
      = val_main_v88 (F := Ideal) x0 x1 x2 x3 x4 x5 x6 x7 x8 x9 x10 (ix2 n j) + x11 (ix1 j) := by
  rw [val_main_v91_apply, val_main_v90_apply, val_main_v89_apply]
  have e : idx_main_v89 (idx_main_v90 (ix2 n j)) = ix1 j := funext fun a => by match a with | ⟨0, _⟩ => rfl
  rw [e]
  rfl

/-- The second product of the reference at node n. -/
theorem ref_score (n : Fin 30000) :
    val_main_v93 (F := Ideal) x0 x1 x2 x3 x4 x5 x6 x7 x8 x9 x10 x11 x12 (ix2 n (0 : Fin 1))
      = ∑ j : Fin 32, val_main_v91 (F := Ideal) x0 x1 x2 x3 x4 x5 x6 x7 x8 x9 x10 x11 (ix2 n j) * x12 (ix2 (0 : Fin 1) j) := by
  rw [val_main_v93_apply]
  refine Finset.sum_congr rfl fun j _ => ?_
  rw [val_main_v92_apply]
  have el : lidx_main_v93 (ix2 n (0 : Fin 1)) j = ix2 n j := funext fun a => by match a with | ⟨0, _⟩ => rfl | ⟨1, _⟩ => rfl
  have er : idx_main_v92 (ridx_main_v93 (ix2 n (0 : Fin 1)) j) = ix2 (0 : Fin 1) j := funext fun a => by match a with | ⟨0, _⟩ => rfl | ⟨1, _⟩ => rfl
  rw [el, er]

/-- The reference's output at node n: the second product plus its bias. -/
theorem ref_out (n : Fin 30000) :
    val_main_v96 (F := Ideal) x0 x1 x2 x3 x4 x5 x6 x7 x8 x9 x10 x11 x12 x13 (ix2 n (0 : Fin 1))
      = val_main_v93 (F := Ideal) x0 x1 x2 x3 x4 x5 x6 x7 x8 x9 x10 x11 x12 (ix2 n (0 : Fin 1)) + x13 (ix1 (0 : Fin 1)) := by
  rw [val_main_v96_apply, val_main_v95_apply, val_main_v94_apply]
  have e : idx_main_v94 (idx_main_v95 (ix2 n (0 : Fin 1))) = ix1 (0 : Fin 1) := funext fun a => by match a with | ⟨0, _⟩ => rfl
  rw [e]
  rfl

end Ref

/-- The constant's word denotes one. -/
theorem one_eq : one = 1 := by
  simp [one, Ideal.ofBits, Ideal.ieee, -EReal.coe_mul]; norm_num

/-- Dividing by a degree bounded below by one is multiplying by its reciprocal: the bound is positive, so never zero. -/
theorem div_bounded (a d : EReal) : Ideal.div a (max d one) = a * Ideal.div one (max d one) := by
  have hpos : (0 : EReal) < max d one := lt_of_lt_of_le (by rw [one_eq]; exact zero_lt_one) (le_max_right d one)
  have hm : max d one ≠ 0 := hpos.ne'
  unfold Ideal.div
  rw [if_neg hm, if_neg hm, one_eq, one_mul]

/-- The third region's output at node n is the reference's score at node n, when the region's operands are the
    reference's aggregate transposed, its degree as a row, and its bias vectors as a column and a one-by-one array. -/
theorem conv_eq
    (x0 : Vec Ideal Cert.ReferenceIdeal.S30000x2 .f32) (x1 : Vec Ideal Cert.ReferenceIdeal.S30000x512 .f32)
    (x2 : IVec Cert.ReferenceIdeal.S2x480000 32) (x3 : Vec Ideal Cert.ReferenceIdeal.S32x2 .f32)
    (x4 x5 x6 : Vec Ideal Cert.ReferenceIdeal.S32 .f32) (x7 : Vec Ideal Cert.ReferenceIdeal.S_ .f32)
    (x8 : Vec Ideal Cert.ReferenceIdeal.S32x32 .f32) (x9 : Vec Ideal Cert.ReferenceIdeal.S32 .f32)
    (x10 : Vec Ideal Cert.ReferenceIdeal.S32x32 .f32) (x11 : Vec Ideal Cert.ReferenceIdeal.S32 .f32)
    (x12 : Vec Ideal Cert.ReferenceIdeal.S1x32 .f32) (x13 : Vec Ideal Cert.ReferenceIdeal.S1 .f32)
    (aggT : Vec Ideal Cert.KernelIdeal.S32x30000 .f32) (degR : Vec Ideal Cert.KernelIdeal.S1x30000 .f32)
    (bcc : Vec Ideal Cert.KernelIdeal.S32x1 .f32) (bp11 : Vec Ideal Cert.KernelIdeal.S1x1 .f32)
    (hagg : ∀ (k : Fin 32) (n : Fin 30000),
      aggT (ix2 k n) = Cert.ReferenceIdeal.Read.val_main_v77 (F := Ideal) x0 x1 x2 x3 x4 x5 x6 x7 x8 x9 (ix2 n k))
    (hdeg : ∀ n : Fin 30000, degR (ix2 (0 : Fin 1) n) = Cert.ReferenceIdeal.Read.val_main_v81 (F := Ideal) x2 (ix1 n))
    (hbc : ∀ j : Fin 32, bcc (ix2 j (0 : Fin 1)) = x11 (ix1 j))
    (hbp : bp11 (ix2 (0 : Fin 1) (0 : Fin 1)) = x13 (ix1 (0 : Fin 1)))
    (n : Fin 30000) :
    out2_6 (F := Ideal) aggT degR x10 bcc x12 bp11 (ix2 (0 : Fin 1) n)
      = Cert.ReferenceIdeal.Read.val_main_v96 (F := Ideal) x0 x1 x2 x3 x4 x5 x6 x7 x8 x9 x10 x11 x12 x13 (ix2 n (0 : Fin 1)) := by
  rw [out2_6_eq, k2_at, ref_out, ref_score, hbp]
  refine congrArg₂ (· + ·) ?_ rfl
  refine Finset.sum_congr rfl fun j _ => ?_
  rw [ref_hid, ref_lin, hbc, mul_comm]
  refine congrArg₂ (· * ·) ?_ rfl
  refine congrArg₂ (· + ·) ?_ rfl
  refine Finset.sum_congr rfl fun k _ => ?_
  rw [ref_mean, hagg, hdeg, mul_comm]
  refine congrArg₂ (· * ·) ?_ rfl
  exact (div_bounded _ _).symm

end Cert.Bridge.Conv

end
-- ==== Proof.Bridge.lean ====
/-
  The two programs compute one function.

  The kernel program's result, as a function of the fourteen arguments, is the reference's. Three facts join them.
  The first region's output transposed back is the reference's hidden layer (entry by entry: the region holds
  features along the rows, the reference nodes). The second region's output is the reference's normalized rows.
  So the aggregate — one and the same function of normalized rows, hidden features and edge list on both sides —
  takes equal arguments, and the third region, read at a node, is the reference's score of that node.
-/
import proofs.«133878_j20023137534015_1_alg».proof.Proof.KFold
import proofs.«133878_j20023137534015_1_alg».proof.Proof.BodyMlp
import proofs.«133878_j20023137534015_1_alg».proof.Proof.BodyConv
import proofs.«133878_j20023137534015_1_alg».proof.Proof.LibUnitAxis
import proofs.«133878_j20023137534015_1_alg».proof.Proof.LibBcastRow

noncomputable section

namespace Cert.Bridge

open Cert.KernelIdeal Cert.KernelIdeal.Gen Cert.KernelIdeal.KFold
open Idealize.ShloMosaic Idealize.ShloMosaic.ValueIdx
open Cert.Bridge.Edge (aggOf v77_eq)

/-- A scalar recast as a one-by-one array holds the scalar. -/
theorem scalar_as_1x1 (x : Vec Ideal S_ .f32) (h : S_.ShapeCasts S1x1) :
    shapeCast S1x1 x h (ix2 (0 : Fin 1) (0 : Fin 1)) = x ix0 :=
  shapeCast_apply x h _ _ (by
    have h1 := (S_.rowMajor ix0).isLt
    have h2 := (S1x1.rowMajor (ix2 (0 : Fin 1) (0 : Fin 1))).isLt
    simp only [Shape.numel] at h1 h2
    simp at h1 h2
    omega)

/-- A one-entry vector recast as a one-by-one array holds its entry. -/
theorem one_as_1x1 (x : Vec Ideal S1 .f32) (h : S1.ShapeCasts S1x1) :
    shapeCast S1x1 x h (ix2 (0 : Fin 1) (0 : Fin 1)) = x (ix1 (0 : Fin 1)) :=
  Cert.Lib.UnitAxis.shapeCast_a_a1_apply x h 0 0

/-- The kernel program's hidden features are the reference's hidden layer. -/
theorem kH_eq (x0 : Vec Ideal S30000x2 .f32) (x3 : Vec Ideal S32x2 .f32) (x4 x5 x6 : Vec Ideal S32 .f32)
    (x7 : Vec Ideal S_ .f32) (x8 : Vec Ideal S32x32 .f32) (x9 : Vec Ideal S32 .f32) :
    kH x0 x3 x4 x5 x6 x7 x8 x9 = Cert.ReferenceIdeal.Read.val_main_v39 (F := Ideal) x0 x3 x4 x5 x6 x7 x8 x9 := by
  funext i
  obtain ⟨n, j, rfl⟩ : ∃ (n : Fin 30000) (j : Fin 32), i = ix2 n j := ⟨i 0, i 1, eq_ix2 i⟩
  unfold kH
  rw [transpose_apply [1, 0] _ transposes_S32x30000_S30000x32_1_0 (ix2 n j) (ix2 j n) (fun b => match b with | ⟨0, _⟩ => rfl | ⟨1, _⟩ => rfl)]
  exact Cert.Bridge.Mlp.mlp_eq _ x3 _ _ _ _ x8 _ x0 x4 x5 x6 x9 x7
    (fun n k => transpose_apply [1, 0] x0 transposes_S30000x2_S2x30000_1_0 (ix2 k n) (ix2 n k) (fun b => match b with | ⟨0, _⟩ => rfl | ⟨1, _⟩ => rfl))
    (fun j => Cert.Lib.UnitAxis.shapeCast_a_a1_apply x4 shapeCasts_S32_S32x1 j 0)
    (fun j => Cert.Lib.UnitAxis.shapeCast_a_a1_apply x5 shapeCasts_S32_S32x1 j 0)
    (fun j => Cert.Lib.UnitAxis.shapeCast_a_a1_apply x6 shapeCasts_S32_S32x1 j 0)
    (scalar_as_1x1 x7 shapeCasts_S_S1x1)
    (fun j => Cert.Lib.UnitAxis.shapeCast_a_a1_apply x9 shapeCasts_S32_S32x1 j 0)
    n j

/-- The kernel program's result is the reference's result, as functions of the fourteen arguments. -/
theorem kRes_eq (x0 : Vec Ideal S30000x2 .f32) (x1 : Vec Ideal S30000x512 .f32) (x2 : IVec S2x480000 32)
    (x3 : Vec Ideal S32x2 .f32) (x4 x5 x6 : Vec Ideal S32 .f32) (x7 : Vec Ideal S_ .f32) (x8 : Vec Ideal S32x32 .f32)
    (x9 : Vec Ideal S32 .f32) (x10 : Vec Ideal S32x32 .f32) (x11 : Vec Ideal S32 .f32) (x12 : Vec Ideal S1x32 .f32)
    (x13 : Vec Ideal S1 .f32) :
    kRes x0 x1 x2 x3 x4 x5 x6 x7 x8 x9 x10 x11 x12 x13 = Cert.ReferenceIdeal.Read.val_main_v97 (F := Ideal) x0 x1 x2 x3 x4 x5 x6 x7 x8 x9 x10 x11 x12 x13 := by
  funext i
  obtain ⟨n, rfl⟩ : ∃ n : Fin 30000, i = ix1 n := ⟨i 0, eq_ix1 i⟩
  rw [Cert.ReferenceIdeal.Read.val_main_v97_apply]
  have hidx : Cert.ReferenceIdeal.Read.idx_main_v97 (ix1 n) = ix2 n (0 : Fin 1) := funext fun a => Fin.ext (by
    match a with
    | ⟨0, _⟩ => exact Nat.div_one _
    | ⟨1, _⟩ => rfl)
  rw [hidx]
  unfold kRes
  rw [shapeCast_apply _ shapeCasts_S1x30000_S30000 (ix1 n) (ix2 (0 : Fin 1) n) (by
    rw [Shape.rowMajor_val_two, Shape.rowMajor_val_one]
    show (0 : Fin 1).val * 30000 + n.val = n.val
    simp)]
  rw [kH_eq]
  exact Cert.Bridge.Conv.conv_eq x0 x1 x2 x3 x4 x5 x6 x7 x8 x9 x10 x11 x12 x13 _ _ _ _
    (fun k n => (transpose_apply [1, 0] _ transposes_S30000x32_S32x30000_1_0 (ix2 k n) (ix2 n k) (fun b => match b with | ⟨0, _⟩ => rfl | ⟨1, _⟩ => rfl)).trans
      (congrFun (v77_eq (F := Ideal) x0 x1 x2 x3 x4 x5 x6 x7 x8 x9).symm (ix2 n k)))
    (fun n => Cert.LibBcastRow.shapeCast_b_1b_apply (Cert.ReferenceIdeal.Read.val_main_v81 (F := Ideal) x2) shapeCasts_S30000_S1x30000 0 n)
    (fun j => Cert.Lib.UnitAxis.shapeCast_a_a1_apply x11 shapeCasts_S32_S32x1 j 0)
    (one_as_1x1 x13 shapeCasts_S1_S1x1)
    n

end Cert.Bridge

end
-- ==== Proof.lean ====
/-
  The kernel computes the reference's node scores.

  Both programs score the 30000 nodes of a graph. Two input coordinates per node pass through an affine layer,
  a normalization of each of the 32 features by its mean and variance over all nodes, a one-slope rectifier and a
  second affine layer. The 512 visual features of each node are divided by their Euclidean norm, bounded below.
  Along every edge the inner product of the two end nodes' normalized visual rows weighs the source node's hidden
  features, and the weighted features are summed per destination node and divided by the node's number of
  incoming edges, bounded below by one. Two more affine layers turn each node's 32 averaged features into one score.

  The kernel program does the dense layers in three kernel regions with the features along the rows, and where the
  reference divides by a bounded quantity it multiplies by the quantity's reciprocal. On the extended reals a
  quotient by a nonzero y is the product with the inverse of y, and so is the product with one over y; both bounds
  are positive, so the two spellings agree at every entry, finite or not. A sum does not depend on the order of its
  terms nor a product on the order of its factors, which is all that a transposed layout changes. The edge stage is
  the same function of the normalized rows, the hidden features and the edge list in both programs and is carried
  whole. The word-level kernel's idealization rewrote no operation, so nothing is owed for it beyond its frame.
-/
import proofs.«133878_j20023137534015_1_alg».proof.Defs
import proofs.«133878_j20023137534015_1_alg».proof.Proof.Gen.Kernel
import proofs.«133878_j20023137534015_1_alg».proof.Proof.Gen.Kernel.Frame
import proofs.«133878_j20023137534015_1_alg».proof.Proof.Gen.KernelIdeal
import proofs.«133878_j20023137534015_1_alg».proof.Proof.Gen.KernelIdeal.Frame
import proofs.«133878_j20023137534015_1_alg».proof.Proof.Gen.ReferenceIdeal
import proofs.«133878_j20023137534015_1_alg».proof.Proof.Gen.ReferenceIdeal.Run
import proofs.«133878_j20023137534015_1_alg».proof.Proof.Gen.ReferenceIdeal.Read
import proofs.«133878_j20023137534015_1_alg».proof.Proof.Gen.Pre_finite_inputs
import proofs.«133878_j20023137534015_1_alg».proof.Proof.KRun
import proofs.«133878_j20023137534015_1_alg».proof.Proof.KFold
import proofs.«133878_j20023137534015_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs to the end without a fault and leaves its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs to the end and leaves its arguments as launched: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel over the extended reals rewrote no operation. -/
theorem preserves : Cert.preserves_Kernel_KernelIdeal := trivial

/-- From memories that agree on the arguments both programs end with the same scores: the kernel program's result
    is its result function of the arguments, the reference's is its own, and the two functions are one. -/
theorem algebraic : Cert.algebraic_KernelIdeal_ReferenceIdeal := by
  intro m ρ m' ρ' _ hagree
  refine ⟨fun c => Cert.KernelIdeal.KFold.kRes
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.KFold.result_eq m ρ c), (h c).2⟩)
      (Cert.KernelIdeal.KRun.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13⟩ := hagree c
    rw [Cert.ReferenceIdeal.Read.val_main_v97_eq, e0, e1, e2, e3, e4, e5, e6, e7, e8, e9, e10, e11, e12, e13]
    exact (Cert.Bridge.kRes_eq _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
